-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v26) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x2048 : Shape := ⟨2, ![8, 2048]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x4096x3 .f32) (main_arg1 : FVec F S8x4096x3 .f32) (main_arg2 : FVec F S8x2048 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  main_v13
-- ==== Kernel.lean ====
abbrev S8x4096x3 : Shape := ⟨3, ![8, 4096, 3]⟩
abbrev S8x2048 : Shape := ⟨2, ![8, 2048]⟩
abbrev S_ : Shape := ⟨0, ![]⟩
abbrev S8x4096x1 : Shape := ⟨3, ![8, 4096, 1]⟩
abbrev S8x4096x4 : Shape := ⟨3, ![8, 4096, 4]⟩
abbrev S8x4096 : Shape := ⟨2, ![8, 4096]⟩
abbrev S8x3x4096 : Shape := ⟨3, ![8, 3, 4096]⟩
abbrev S8x1x4096 : Shape := ⟨3, ![8, 1, 4096]⟩
abbrev S8x4x4096 : Shape := ⟨3, ![8, 4, 4096]⟩
abbrev S2x8x4096 : Shape := ⟨3, ![2, 8, 4096]⟩
abbrev S8x128x4 : Shape := ⟨3, ![8, 128, 4]⟩
abbrev S8x128 : Shape := ⟨2, ![8, 128]⟩
abbrev S1x8x4096 : Shape := ⟨3, ![1, 8, 4096]⟩
abbrev S8x128x4096 : Shape := ⟨3, ![8, 128, 4096]⟩
abbrev S8x128x3 : Shape := ⟨3, ![8, 128, 3]⟩
abbrev S8x128x1 : Shape := ⟨3, ![8, 128, 1]⟩

abbrev nBuf : Space → Nat
  | .hbm => 47
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x2048, .f32⟩
  | .hbm, ⟨3, _⟩ => ⟨S_, .f32⟩
  | .hbm, ⟨4, _⟩ => ⟨S8x4096x1, .f32⟩
  | .hbm, ⟨5, _⟩ => ⟨S8x4096x4, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x3x4096, .f32⟩
  | .hbm, ⟨10, _⟩ => ⟨S_, .f32⟩
  | .hbm, ⟨11, _⟩ => ⟨S8x3x4096, .f32⟩
  | .hbm, ⟨12, _⟩ => ⟨S8x3x4096, .f32⟩
  | .hbm, ⟨13, _⟩ => ⟨S8x1x4096, .f32⟩
  | .hbm, ⟨14, _⟩ => ⟨S8x4x4096, .f32⟩
  | .hbm, ⟨15, _⟩ => ⟨S8x4096, .f32⟩
  | .hbm, ⟨16, _⟩ => ⟨S2x8x4096, .f32⟩
  | .hbm, ⟨17, _⟩ => ⟨S1x8x4096, .f32⟩
  | .hbm, ⟨18, _⟩ => ⟨S8x4096, .f32⟩
  | .hbm, ⟨19, _⟩ => ⟨S1x8x4096, .f32⟩
  | .hbm, ⟨20, _⟩ => ⟨S8x4096, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S8x128x4, .f32⟩
  | .local _ .vmem, ⟨1, _⟩ => ⟨S8x128x4, .f32⟩
  | .local _ .vmem, ⟨2, _⟩ => ⟨S8x4x4096, .f32⟩
  | .local _ .vmem, ⟨3, _⟩ => ⟨S8x128, .f32⟩
  | .local _ .vmem, ⟨4, _⟩ => ⟨S8x128, .f32⟩
  | .local _ .vmem, ⟨5, _⟩ => ⟨S1x8x4096, .f32⟩
  | .local _ .vmem, ⟨6, _⟩ => ⟨S1x8x4096, .f32⟩
  | .local _ .vmem, ⟨7, _⟩ => ⟨S8x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_15 : BitVec 32 := 0#32
  let v26 : BitVec 1 := Scalar.cmpi .ne v25 c0_i32_15
  v26

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  reducesTo_S8x4096x3_S8x4096_d2 : S8x4096x3.ReducesTo [2] S8x4096
  h_S_ : 0 < S_.numel
  transposes_S8x4096x3_S8x3x4096_0_2_1 : S8x4096x3.Transposes [0, 2, 1] S8x3x4096
  bcast_S_S8x3x4096 : S_.BroadcastsInDim S8x3x4096 (![] : Fin 0 → Fin S8x3x4096.rank)
  bcast_S8x4096_S8x1x4096_0_2 : S8x4096.BroadcastsInDim S8x1x4096 (![0, 2] : Fin 2 → Fin S8x1x4096.rank)
  concatenates_S8x3x4096_S8x1x4096_S8x4x4096_d1 : Shape.Concatenates [S8x3x4096, S8x1x4096] S8x4x4096 1
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8x128x4_S8x128x4_0_0_0 : ∀ a, (![0, 0, 0] : Fin 3 → Nat) a + S8x128x4.size a ≤ S8x128x4.size a
  h_S8x128x4 : 0 < S8x128x4.numel
  shapeCasts_S8x128x4_S8x128x4 : S8x128x4.ShapeCasts S8x128x4
  inb_S8x4x4096_S8x4x4096_0_0_0 : ∀ a, (![0, 0, 0] : Fin 3 → Nat) a + S8x4x4096.size a ≤ S8x4x4096.size a
  h_S8x4x4096 : 0 < S8x4x4096.numel
  shapeCasts_S8x4x4096_S8x4x4096 : S8x4x4096.ShapeCasts S8x4x4096
  slices_S8x128x4_o0_0_0_S8x128x3 : S8x128x4.Slices ![0, 0, 0] S8x128x3
  reduces_S8x128x3_S8x128 : S8x128x3.Reduces [2] S8x128
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  shapeCasts_S8x128_S8x128x1 : S8x128.ShapeCasts S8x128x1
  broadcasts_S8x128x1_S8x128x4096 : S8x128x1.Broadcasts S8x128x4096
  reduces_S8x128x4096_S8x4096 : S8x128x4096.Reduces [1] S8x4096
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  shapeCasts_S8x4096_S1x8x4096 : S8x4096.ShapeCasts S1x8x4096
  slices_S2x8x4096_S1x8x4096_0_0_0 : S2x8x4096.Slices ![0, 0, 0] S1x8x4096
  slices_S2x8x4096_S1x8x4096_1_0_0 : S2x8x4096.Slices ![1, 0, 0] S1x8x4096
  reducesTo_S8x4096_S_d0_1 : S8x4096.ReducesTo [0, 1] S_
  bcast_S_S8x2048 : S_.BroadcastsInDim S8x2048 (![] : Fin 0 → Fin S8x2048.rank)
  reducesTo_S8x2048_S_d0_1 : S8x2048.ReducesTo [0, 1] S_
  dot_S8x128x4_S8x4x4096_S8x128x4096_2_1_1_2_0_0_wf : DotDims.WF S8x128x4 S8x4x4096 S8x128x4096 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4.size a ≤ S8x4096x4.size a
  hwx0_0 : ∀ i : grid0.Coords, EltTy.bits .f32 = 32 ∨ (Rect.block (s := S8x4096x4) S8x128x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4x4096.size a ≤ S8x4x4096.size a
  hwx0_1 : ∀ i : grid0.Coords, EltTy.bits .f32 = 32 ∨ (Rect.block (s := S8x4x4096) S8x4x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x4096.size a
  hwx0_2 : ∀ i : grid0.Coords, EltTy.bits .f32 = 32 ∨ (Rect.block (s := S8x4096) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x4096.size a ≤ S2x8x4096.size a
  hwx0_3 : ∀ i : grid0.Coords, EltTy.bits .f32 = 32 ∨ (Rect.block (s := S2x8x4096) S1x8x4096.size (cc0_transform_3 i) (hinb0_3 i)).WholeWords (EltTy.packing .f32)

variable [Facts₀]

def dot_S8x128x4_S8x4x4096_S8x128x4096_2_1_1_2_0_0 : DotDims S8x128x4 S8x4x4096 S8x128x4096 where
  lhsContracting := [2]
  rhsContracting := [1]
  lhsNonContracting := [1]
  rhsNonContracting := [2]
  lhsBatch := [0]
  rhsBatch := [0]
  wf := dot_S8x128x4_S8x4x4096_S8x128x4096_2_1_1_2_0_0_wf

abbrev win0_0 : Pipeline.Window sig grid0 :=
  Pipeline.Window.ofSpec (Memref.whole main_v1) S8x128x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8x4x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_1) S1x8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x2048 : Shape := ⟨2, ![8, 2048]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x4096x3, .f32⟩
  | .hbm, ⟨17, _⟩ => ⟨S_, .f32⟩
  | .hbm, ⟨18, _⟩ => ⟨S8x4096, .f32⟩
  | .hbm, ⟨19, _⟩ => ⟨S8x4096x3, .f32⟩
  | .hbm, ⟨20, _⟩ => ⟨S_, .f32⟩
  | .hbm, ⟨21, _⟩ => ⟨S8x4096, .f32⟩
  | .hbm, ⟨22, _⟩ => ⟨S8x4096x4096, .f32⟩
  | .hbm, ⟨23, _⟩ => ⟨S8x4096x1, .f32⟩
  | .hbm, ⟨24, _⟩ => ⟨S8x1x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x1, .f32⟩
  | .hbm, ⟨33, _⟩ => ⟨S8x1x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_cst_13 : Ref sig .tc := ⟨.hbm, 51, rfl⟩
abbrev main_v34 : Ref sig .tc := ⟨.hbm, 52, rfl⟩
abbrev main_v35 : Ref sig .tc := ⟨.hbm, 53, rfl⟩
abbrev main_cst_14 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  reducesTo_S8x2048_S_d0_1 : S8x2048.ReducesTo [0, 1] S_
  h_S_ : 0 < S_.numel
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S_d0_1 : S8x4096.ReducesTo [0, 1] S_
  reducesTo_S8x4096x4096_S8x4096_d1 : S8x4096x4096.ReducesTo [1] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.ChamferSpec.lean ====
/-
  The two arrangements of the squared-distance minima between two batches of point clouds, as plain functions of the
  clouds' entries on the extended reals.

  For clouds `x`, `y` (eight batches of 4096 points with three coordinates) the squared distance between point `p` of `x`
  and point `q` of `y` in batch `n` is `|x_p|² + |y_q|² − 2·⟨x_p, y_q⟩`; the two directed minima are the minimum over
  `q` for each `p` and over `p` for each `q`.  The second arrangement appends a coordinate `1` to every point of `x`
  and replaces every point `y_q` by `(−2·y_q, |y_q|²)`: the four-term inner product of the two is `|y_q|² − 2·⟨x_p, y_q⟩`,
  to which `|x_p|²` is added, before the minimum over `p` and after the minimum over `q`; the minimum over `p` is taken
  over the two halves of the cloud separately.
-/
import Idealize.ShloMosaic.PureOps.Ideal
import Idealize.ShloMosaic.Lib.ValueIdx

noncomputable section

namespace Chamfer

open Idealize.ShloMosaic Idealize.ShloMosaic.ValueIdx

/-- Eight clouds of 4096 points with three coordinates. -/
abbrev Pts : Shape := ⟨3, ![8, 4096, 3]⟩
/-- The clouds with a fourth coordinate appended to every point. -/
abbrev Aug : Shape := ⟨3, ![8, 4096, 4]⟩
/-- The same with the point axis last. -/
abbrev AugT : Shape := ⟨3, ![8, 4, 4096]⟩
/-- One number per point of every cloud. -/
abbrev Mat : Shape := ⟨2, ![8, 4096]⟩
/-- One such array per half of the cloud. -/
abbrev Halves : Shape := ⟨3, ![2, 8, 4096]⟩

/-- The squared norm of point `p` of cloud `n`: the zero word plus the sum of the squares of its coordinates. -/
def sqn (x : Pts.Idx → EReal) (n : Fin 8) (p : Fin 4096) : EReal :=
  Ideal.ofBits .f32 0x00000000#32 + ∑ c : Fin 3, x (ix3 n p c) * x (ix3 n p c)

/-- The inner product of point `p` of `x` and point `q` of `y` in cloud `n`. -/
def dot3 (x y : Pts.Idx → EReal) (n : Fin 8) (p q : Fin 4096) : EReal :=
  ∑ c : Fin 3, x (ix3 n p c) * y (ix3 n q c)

/-- The squared distance: `(|x_p|² + |y_q|²) − 2·⟨x_p, y_q⟩`. -/
def dist (x y : Pts.Idx → EReal) (n : Fin 8) (p q : Fin 4096) : EReal :=
  (sqn x n p + sqn y n q) - Ideal.ofBits .f32 0x40000000#32 * dot3 x y n p q

/-- For each point of `x` the least squared distance to a point of `y`. -/
def rowMin (x y : Pts.Idx → EReal) : Mat.Idx → EReal :=
  fun j => (Finset.univ : Finset (Fin 4096)).fold min ⊤ fun q => dist x y (j 0) (j 1) q

/-- For each point of `y` the least squared distance to a point of `x`. -/
def colMin (x y : Pts.Idx → EReal) : Mat.Idx → EReal :=
  fun j => (Finset.univ : Finset (Fin 4096)).fold min ⊤ fun p => dist x y (j 0) p (j 1)

/-- The points of `x` with the coordinate `1` appended. -/
def augX (x : Pts.Idx → EReal) : Aug.Idx → EReal :=
  fun j => if h : (j 2).val < 3 then x (ix3 (j 0) (j 1) ⟨(j 2).val, h⟩) else Ideal.ofBits .f32 0x3F800000#32

/-- The points of `y`, each replaced by `(−2·y_q, |y_q|²)`, with the point axis last. -/
def augY (y : Pts.Idx → EReal) : AugT.Idx → EReal :=
  fun j => if h : (j 1).val < 3 then Ideal.ofBits .f32 0xC0000000#32 * y (ix3 (j 0) (j 2) ⟨(j 1).val, h⟩)
    else sqn y (j 0) (j 2)

/-- The four-term inner product of an augmented point of `x` and an augmented point of `y`. -/
def cross (xa : Aug.Idx → EReal) (ya : AugT.Idx → EReal) (n : Fin 8) (p q : Fin 4096) : EReal :=
  ∑ k : Fin 4, xa (ix3 n p k) * ya (ix3 n k q)

/-- The sum of the squares of the first three coordinates of an augmented point. -/
def sq3 (xa : Aug.Idx → EReal) (n : Fin 8) (p : Fin 4096) : EReal :=
  ∑ c : Fin 3, xa (ix3 n p ⟨c.val, by omega⟩) * xa (ix3 n p ⟨c.val, by omega⟩)

/-- The squared distance in the second arrangement. -/
def distAug (xa : Aug.Idx → EReal) (ya : AugT.Idx → EReal) (n : Fin 8) (p q : Fin 4096) : EReal :=
  cross xa ya n p q + sq3 xa n p

/-- The minimum over `q` in the second arrangement: the squared norm is added after the minimum. -/
def rowAug (xa : Aug.Idx → EReal) (ya : AugT.Idx → EReal) : Mat.Idx → EReal :=
  fun j => ((Finset.univ : Finset (Fin 4096)).fold min ⊤ fun q => cross xa ya (j 0) (j 1) q) + sq3 xa (j 0) (j 1)

/-- The squared distance in the second arrangement at a point number that may be out of range (then the top element). -/
def distAugN (xa : Aug.Idx → EReal) (ya : AugT.Idx → EReal) (n : Fin 8) (p : ℕ) (q : Fin 4096) : EReal :=
  if h : p < 4096 then distAug xa ya n ⟨p, h⟩ q else ⊤

/-- The minimum over the points of one half of the cloud, in the second arrangement. -/
def colHalfAug (xa : Aug.Idx → EReal) (ya : AugT.Idx → EReal) : Halves.Idx → EReal :=
  fun j => (Finset.range 2048).fold min ⊤ fun s => distAugN xa ya (j 1) (2048 * (j 0).val + s) (j 2)

end Chamfer

end
-- ==== Proof.MinAlgebra.lean ====
/-
  Order facts on the extended reals used to join the two arrangements of the squared-distance minima: a fold of `min`
  from the top element is characterised by its lower bounds; a fold over an initial segment of the naturals extends by a
  block; adding a real number commutes with such a fold; the fold over all 4096 points is the minimum of the folds over
  the two halves.
-/
import Idealize.ShloMosaic.PureOps.Ideal

noncomputable section

namespace Chamfer

/-- The lower bounds of a fold of `min` from the top element are the common lower bounds of the family. -/
theorem le_fold_min_top_iff {ι : Type*} (s : Finset ι) (f : ι → EReal) (z : EReal) :
    z ≤ s.fold min ⊤ f ↔ ∀ k ∈ s, z ≤ f k := by
  rw [Finset.le_fold_min]
  exact ⟨fun h => h.2, fun h => ⟨le_top, h⟩⟩

/-- Two extended reals with the same lower bounds are equal. -/
theorem eq_of_lower_bounds {a b : EReal} (h : ∀ z : EReal, z ≤ a ↔ z ≤ b) : a = b :=
  le_antisymm ((h a).mp le_rfl) ((h b).mpr le_rfl)

/-- The fold over the first `a + b` naturals is the minimum of the fold over the first `a` and of the fold over the
    next `b`. -/
theorem fold_range_add (f : ℕ → EReal) (a b : ℕ) :
    (Finset.range (a + b)).fold min ⊤ f
      = min ((Finset.range a).fold min ⊤ f) ((Finset.univ : Finset (Fin b)).fold min ⊤ fun r => f (a + r.val)) := by
  refine eq_of_lower_bounds fun z => ?_
  rw [le_min_iff, le_fold_min_top_iff, le_fold_min_top_iff, le_fold_min_top_iff]
  constructor
  · intro h
    refine ⟨fun k hk => h k ?_, fun r _ => h _ ?_⟩
    · rw [Finset.mem_range] at hk ⊢; omega
    · rw [Finset.mem_range]; have := r.isLt; omega
  · rintro ⟨h1, h2⟩ k hk
    rw [Finset.mem_range] at hk
    by_cases hka : k < a
    · exact h1 k (Finset.mem_range.mpr hka)
    · have := h2 ⟨k - a, by omega⟩ (Finset.mem_univ _)
      simpa [Nat.add_sub_cancel' (Nat.le_of_not_lt hka)] using this

/-- The fold over a block of `b` naturals from `0`, as a fold over `Fin b`. -/
theorem fold_range_eq_univ (f : ℕ → EReal) (b : ℕ) :
    (Finset.range b).fold min ⊤ f = (Finset.univ : Finset (Fin b)).fold min ⊤ fun r => f r.val := by
  have h := fold_range_add f 0 b
  simp only [Nat.zero_add, Finset.range_zero, Finset.fold_empty, min_eq_right le_top] at h
  simpa using h

/-- Adding a real number commutes with a fold of `min` from the top element. -/
theorem fold_min_add_real {ι : Type*} (s : Finset ι) (f : ι → EReal) (r : ℝ) :
    s.fold min ⊤ f + (r : EReal) = s.fold min ⊤ fun k => f k + (r : EReal) := by
  have hmono : Monotone fun x : EReal => x + (r : EReal) := fun a b hab => add_le_add hab le_rfl
  have h := (Finset.fold_hom (op := min) (op' := min) (s := s) (b := (⊤ : EReal)) (f := f)
    (m := fun x : EReal => x + (r : EReal)) (fun _ _ => hmono.map_min)).symm
  simpa [EReal.top_add_coe] using h

/-- The minimum over all 4096 points is the minimum of the minima over the first 2048 and over the last 2048. -/
theorem fold_univ_halves (f : Fin 4096 → EReal) :
    (Finset.univ : Finset (Fin 4096)).fold min ⊤ f
      = min ((Finset.range 2048).fold min ⊤ fun s => if h : 2048 * 0 + s < 4096 then f ⟨2048 * 0 + s, h⟩ else ⊤)
          ((Finset.range 2048).fold min ⊤ fun s => if h : 2048 * 1 + s < 4096 then f ⟨2048 * 1 + s, h⟩ else ⊤) := by
  refine eq_of_lower_bounds fun z => ?_
  rw [le_min_iff, le_fold_min_top_iff, le_fold_min_top_iff, le_fold_min_top_iff]
  constructor
  · intro h
    refine ⟨fun s hs => ?_, fun s hs => ?_⟩ <;> rw [Finset.mem_range] at hs
    · rw [dif_pos (by omega)]; exact h _ (Finset.mem_univ _)
    · rw [dif_pos (by omega)]; exact h _ (Finset.mem_univ _)
  · rintro ⟨h1, h2⟩ p _
    by_cases hp : p.val < 2048
    · have := h1 p.val (Finset.mem_range.mpr hp)
      rw [dif_pos (by omega)] at this
      simpa using this
    · have hp' := p.isLt
      have := h2 (p.val - 2048) (Finset.mem_range.mpr (by omega))
      rw [dif_pos (by omega)] at this
      have e : (⟨2048 * 1 + (p.val - 2048), by omega⟩ : Fin 4096) = p := Fin.ext (by simp only; omega)
      rwa [e] at this

end Chamfer

end
-- ==== Proof.KernelPieces.lean ====
/-
  What each grid point leaves in the row output, in the scratch and (at the last point of each half) in the column
  output, as the body's stored values of the point's input blocks and of what the point before left in the scratch.
-/
import proofs.«142549_j74560632259515_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]
variable (m : (ℓ : Loc nD τ sig) → Buf (Elt F) ℓ)

/-- The zero offset vector of a rank-2 block is zero at every axis. -/
theorem hz2 : (![0, 0] : Fin 2 → Nat) = fun _ => 0 := funext fun a => by fin_cases a <;> rfl
/-- The zero offset vector of a rank-3 block is zero at every axis. -/
theorem hz3 : (![0, 0, 0] : Fin 3 → Nat) = fun _ => 0 := funext fun a => by fin_cases a <;> rfl

/-! ## What each case of the body leaves, as stored values of its input blocks

  Every store of the body covers its whole buffer through zero offsets, and every load reads a whole buffer, so the
  contents a case leaves are the stored value of the last store, its loads replaced by the contents they read. -/

/-- In the case of an interior point, the row output holds the row store of the two input blocks. -/
theorem out_B_2 (c : Dev nD) (i : grid0.Coords) (arg2 : Memref sig .tc .vmem S8x128x4 .f32) (harg2 : arg2.IsWhole) (arg3 : Memref sig .tc .vmem S8x4x4096 .f32) (harg3 : arg3.IsWhole) (arg4 : Memref sig .tc .vmem S8x128 .f32) (harg4 : arg4.IsWhole) (arg5 : Memref sig .tc .vmem S1x8x4096 .f32) (harg5 : arg5.IsWhole) (arg6 : Memref sig .tc .vmem S8x4096 .f32) (harg6 : arg6.IsWhole) (hc0 : ¬cond0_0 i) (hc1 : ¬cond0_1 i)
    (x0 : Vec F S8x128x4 .f32) (x1 : Vec F S8x4x4096 .f32) (xs0 : Vec F S8x4096 .f32) :
    out0_B_2 c i arg2 harg2 arg3 harg3 arg4 harg4 arg5 harg5 arg6 harg6 hc0 hc1 x0 x1 xs0 = k0_pay5 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  rw [View.canon_unit_zero hz2]
  simp only [View.readAt_eq_ld, harg2.read_unread, harg3.read_unread, View.ld_unit_zero (S := S8x128x4) hz3, View.ld_unit_zero (S := S8x4x4096) hz3]

/-- In the case of a last point, the row output holds the row store of the two input blocks. -/
theorem out_C_2 (c : Dev nD) (i : grid0.Coords) (arg2 : Memref sig .tc .vmem S8x128x4 .f32) (harg2 : arg2.IsWhole) (arg3 : Memref sig .tc .vmem S8x4x4096 .f32) (harg3 : arg3.IsWhole) (arg4 : Memref sig .tc .vmem S8x128 .f32) (harg4 : arg4.IsWhole) (arg5 : Memref sig .tc .vmem S1x8x4096 .f32) (harg5 : arg5.IsWhole) (arg6 : Memref sig .tc .vmem S8x4096 .f32) (harg6 : arg6.IsWhole) (hc0 : ¬cond0_0 i) (hc1 : cond0_1 i)
    (x0 : Vec F S8x128x4 .f32) (x1 : Vec F S8x4x4096 .f32) (xs0 : Vec F S8x4096 .f32) :
    out0_C_2 c i arg2 harg2 arg3 harg3 arg4 harg4 arg5 harg5 arg6 harg6 hc0 hc1 x0 x1 xs0 = k0_pay5 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  rw [View.canon_unit_zero hz2]
  simp only [View.readAt_eq_ld, harg2.read_unread, harg3.read_unread, View.ld_unit_zero (S := S8x128x4) hz3, View.ld_unit_zero (S := S8x4x4096) hz3]

/-- In the case of a first point, the row output holds the row store of the two input blocks. -/
theorem out_A_2 (c : Dev nD) (i : grid0.Coords) (arg2 : Memref sig .tc .vmem S8x128x4 .f32) (harg2 : arg2.IsWhole) (arg3 : Memref sig .tc .vmem S8x4x4096 .f32) (harg3 : arg3.IsWhole) (arg4 : Memref sig .tc .vmem S8x128 .f32) (harg4 : arg4.IsWhole) (arg5 : Memref sig .tc .vmem S1x8x4096 .f32) (harg5 : arg5.IsWhole) (arg6 : Memref sig .tc .vmem S8x4096 .f32) (harg6 : arg6.IsWhole) (hc0 : cond0_0 i) (hc1 : ¬cond0_1 i)
    (x0 : Vec F S8x128x4 .f32) (x1 : Vec F S8x4x4096 .f32) :
    out0_A_2 c i arg2 harg2 arg3 harg3 arg4 harg4 arg5 harg5 arg6 harg6 hc0 hc1 x0 x1 = k0_pay5 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  rw [View.canon_unit_zero hz2]
  simp only [View.readAt_eq_ld, harg2.read_unread, harg3.read_unread, View.ld_unit_zero (S := S8x128x4) hz3, View.ld_unit_zero (S := S8x4x4096) hz3]

/-- In the case of an interior point, the scratch holds the scratch store over what it held before. -/
theorem sout_B_0 (c : Dev nD) (i : grid0.Coords) (arg2 : Memref sig .tc .vmem S8x128x4 .f32) (harg2 : arg2.IsWhole) (arg3 : Memref sig .tc .vmem S8x4x4096 .f32) (harg3 : arg3.IsWhole) (arg4 : Memref sig .tc .vmem S8x128 .f32) (harg4 : arg4.IsWhole) (arg5 : Memref sig .tc .vmem S1x8x4096 .f32) (harg5 : arg5.IsWhole) (arg6 : Memref sig .tc .vmem S8x4096 .f32) (harg6 : arg6.IsWhole) (hc0 : ¬cond0_0 i) (hc1 : ¬cond0_1 i)
    (x0 : Vec F S8x128x4 .f32) (x1 : Vec F S8x4x4096 .f32) (xs0 : Vec F S8x4096 .f32) :
    sout0_B_0 c i arg2 harg2 arg3 harg3 arg4 harg4 arg5 harg5 arg6 harg6 hc0 hc1 x0 x1 xs0 = k0_pay6 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  rw [View.canon_unit_zero hz2]
  simp only [View.readAt_eq_ld, harg2.read_unread, harg3.read_unread, harg6.read_unread, View.ld_unit_zero (S := S8x128x4) hz3, View.ld_unit_zero (S := S8x4x4096) hz3, View.ld_unit_zero (S := S8x4096) hz2]

/-- In the case of a last point, the scratch holds the scratch store over what it held before. -/
theorem sout_C_0 (c : Dev nD) (i : grid0.Coords) (arg2 : Memref sig .tc .vmem S8x128x4 .f32) (harg2 : arg2.IsWhole) (arg3 : Memref sig .tc .vmem S8x4x4096 .f32) (harg3 : arg3.IsWhole) (arg4 : Memref sig .tc .vmem S8x128 .f32) (harg4 : arg4.IsWhole) (arg5 : Memref sig .tc .vmem S1x8x4096 .f32) (harg5 : arg5.IsWhole) (arg6 : Memref sig .tc .vmem S8x4096 .f32) (harg6 : arg6.IsWhole) (hc0 : ¬cond0_0 i) (hc1 : cond0_1 i)
    (x0 : Vec F S8x128x4 .f32) (x1 : Vec F S8x4x4096 .f32) (xs0 : Vec F S8x4096 .f32) :
    sout0_C_0 c i arg2 harg2 arg3 harg3 arg4 harg4 arg5 harg5 arg6 harg6 hc0 hc1 x0 x1 xs0 = k0_pay6 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S8x128x4) hz3, View.ld_unit_zero (S := S8x4x4096) hz3, View.ld_unit_zero (S := S8x4096) hz2]

/-- In the case of a last point, the column output holds the column store of the scratch just written: the scratch
    is read back whole after its one covering store. -/
theorem out_C_3 (c : Dev nD) (i : grid0.Coords) (arg2 : Memref sig .tc .vmem S8x128x4 .f32) (harg2 : arg2.IsWhole) (arg3 : Memref sig .tc .vmem S8x4x4096 .f32) (harg3 : arg3.IsWhole) (arg4 : Memref sig .tc .vmem S8x128 .f32) (harg4 : arg4.IsWhole) (arg5 : Memref sig .tc .vmem S1x8x4096 .f32) (harg5 : arg5.IsWhole) (arg6 : Memref sig .tc .vmem S8x4096 .f32) (harg6 : arg6.IsWhole) (hc0 : ¬cond0_0 i) (hc1 : cond0_1 i)
    (x0 : Vec F S8x128x4 .f32) (x1 : Vec F S8x4x4096 .f32) (xs0 : Vec F S8x4096 .f32) :
    out0_C_3 c i arg2 harg2 arg3 harg3 arg4 harg4 arg5 harg5 arg6 harg6 hc0 hc1 x0 x1 xs0 = k0_pay7 (k0_pay6 x0 x1 xs0) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero (S := S1x8x4096) hz3, View.readCov_unit_zero (S := S8x4096) _ hz2]
  simp only [View.readAt_eq_ld, harg2.read_unread, harg3.read_unread, harg6.read_unread, View.ld_unit_zero (S := S8x128x4) hz3, View.ld_unit_zero (S := S8x4x4096) hz3, View.ld_unit_zero (S := S8x4096) hz2]

/-- In the case of a first point, the scratch is first filled with the initial contents, read back whole, and then
    holds the scratch store over those initial contents. -/
theorem sout_A_0 (c : Dev nD) (i : grid0.Coords) (arg2 : Memref sig .tc .vmem S8x128x4 .f32) (harg2 : arg2.IsWhole) (arg3 : Memref sig .tc .vmem S8x4x4096 .f32) (harg3 : arg3.IsWhole) (arg4 : Memref sig .tc .vmem S8x128 .f32) (harg4 : arg4.IsWhole) (arg5 : Memref sig .tc .vmem S1x8x4096 .f32) (harg5 : arg5.IsWhole) (arg6 : Memref sig .tc .vmem S8x4096 .f32) (harg6 : arg6.IsWhole) (hc0 : cond0_0 i) (hc1 : ¬cond0_1 i)
    (x0 : Vec F S8x128x4 .f32) (x1 : Vec F S8x4x4096 .f32) :
    sout0_A_0 c i arg2 harg2 arg3 harg3 arg4 harg4 arg5 harg5 arg6 harg6 hc0 hc1 x0 x1 = k0_pay6 x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S8x4096) hz2, View.readCov_unit_zero (S := S8x4096) _ hz2]
  simp only [View.readAt_eq_ld, harg2.read_unread, harg3.read_unread, View.ld_unit_zero (S := S8x128x4) hz3, View.ld_unit_zero (S := S8x4x4096) hz3]

/-! ## The grid points -/

/-- Every point leaves the row store of its two input blocks in the row output. -/
theorem out2_at (c : Dev nD) (t : Fin cfg0.N) :
    (outsAt0 m c t.val t.isLt).1 = k0_pay5 (iblk m c 0 t) (iblk m c 1 t) := by
  have hN : t.val < 32 := lt_of_lt_of_eq t.isLt (show cfg0.N = 32 from N_0)
  by_cases h0 : t.val % 16 = 0
  · have h1 : ¬ t.val % 16 = 15 := by omega
    rw [outsAt0_A m c t h0 h1]
    dsimp only
    exact out_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 16 = 15
    · rw [outsAt0_C m c t h0 h1]
      dsimp only
      exact out_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact out_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- The first point of each half leaves in the scratch the scratch store over the initial contents. -/
theorem scr_at_first (c : Dev nD) (t : Fin cfg0.N) (h0 : t.val % 16 = 0) :
    (outsAt0 m c t.val t.isLt).2.2 = k0_pay6 (iblk m c 0 t) (iblk m c 1 t) (k0_pay1 (F := F)) := by
  have h1 : ¬ t.val % 16 = 15 := by omega
  rw [outsAt0_A m c t h0 h1]
  dsimp only
  exact sout_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- Every other point leaves the scratch store over what the point before left. -/
theorem scr_at_next (c : Dev nD) (t : Fin cfg0.N) (h0 : ¬ t.val % 16 = 0) :
    (outsAt0 m c t.val t.isLt).2.2
      = k0_pay6 (iblk m c 0 t) (iblk m c 1 t) (outsAt0 m c (t.val - 1) (Nat.lt_of_le_of_lt (Nat.sub_le _ _) t.isLt)).2.2 := by
  by_cases h1 : t.val % 16 = 15
  · rw [outsAt0_C m c t h0 h1]
    dsimp only
    exact sout_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]
    dsimp only
    exact sout_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- The last point of each half leaves the scratch it has just written in the column output. -/
theorem out3_at_last (c : Dev nD) (t : Fin cfg0.N) (h1 : t.val % 16 = 15) :
    (outsAt0 m c t.val t.isLt).2.1 = k0_pay7 (outsAt0 m c t.val t.isLt).2.2 := by
  have h0 : ¬ t.val % 16 = 0 := by omega
  rw [outsAt0_C m c t h0 h1]
  dsimp only
  exact (out_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans
    (congrArg k0_pay7 (sout_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).symm)

end Cert.KernelIdeal.Pieces

end
-- ==== Proof.LibMinFold.lean ====
/-
  Minima at the ideal instance, for any shapes and extents.

  A float minimum reduction of a vector over ONE axis is, at each result index, the fold of `min` from the
  accumulator's value over that axis's coordinates (the result index with the coordinate inserted on the reduced axis):
  the twin, for a minimum, of the library's reading of a maximum reduction.  The word `0x7F800000` of the 32-bit
  format denotes the top element, so such a fold from it is the plain minimum.  The square root of the extended reals
  — the root on `[0, ⊤]`, the bottom element on the negatives — is monotone, and a monotone map commutes with a binary
  minimum, hence with a fold of `min` over any finite family: the map may be taken before or after the minimum.
-/
import Idealize.ShloMosaic.PureOps.Ideal
import Idealize.ShloMosaic.PureOps.Ideal.Laws
import Idealize.ShloMosaic.PureOps.Reduce

noncomputable section

namespace Cert.Lib.MinFold

open Idealize.ShloMosaic

/-- A float `vector.multi_reduction <minimumf>` over one axis, read at the extended reals: the fold of `min` from the
    accumulator's value over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The 32-bit word of `+inf` denotes the top element. -/
theorem ofBits_inf_f32 : Ideal.ofBits .f32 0x7F800000#32 = ⊤ := by
  simp [Ideal.ofBits, Ideal.ieee]

/-- The square root of the extended reals (bottom on the negatives) is monotone. -/
theorem sqrt_mono : Monotone Ideal.sqrt := by
  intro a b hab
  induction a using EReal.rec with
  | bot => exact bot_le
  | top =>
    have hb : b = ⊤ := top_le_iff.mp hab
    subst hb
    exact le_rfl
  | coe r =>
    induction b using EReal.rec with
    | bot => exact absurd hab (by simp)
    | top => exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- A monotone map of the extended reals commutes with a fold of `min` over any finite family: applied to the
    minimum it is the minimum, from its value at the starting point, of its values on the family. -/
theorem map_fold_min {ι : Type*} {g : EReal → EReal} (hg : Monotone g) (s : Finset ι) (b : EReal) (f : ι → EReal) :
    g (s.fold min b f) = s.fold min (g b) fun k => g (f k) :=
  (Finset.fold_hom (op := min) (op' := min) (s := s) (b := b) (f := f) (m := g) (fun _ _ => hg.map_min)).symm

end Cert.Lib.MinFold

end
-- ==== Proof.KernelPayload.lean ====
/-
  What the body stores, entry by entry, on the extended reals: the row minimum of the four-term inner products plus
  the squared norm; the running column minimum, the minimum of what was there and of the sums over the tile's rows.

  Each stored value is read at an index by pushing the index through its operations: a cast to the same shape changes
  nothing; a product of the row tile with the column block is, entry by entry, the four-term inner product; the lane
  sum of the squares of a row's first three lanes is a three-term sum; a minimum over one axis is the fold of `min`
  from the top element over that axis's coordinates; one number per row, written as a column and repeated along the
  columns, is that number at every column.
-/
import proofs.«142549_j74560632259515_2_alg».proof.Proof.Gen.KernelIdeal.Skeleton
import proofs.«142549_j74560632259515_2_alg».proof.Proof.ChamferSpec
import proofs.«142549_j74560632259515_2_alg».proof.Proof.LibMinFold
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen

/-- The cast of the row tile to its own shape changes nothing. -/
private theorem pay2_eq (x0 : Vec Ideal S8x128x4 .f32) : k0_pay2 (F := Ideal) x0 = x0 := by
  unfold k0_pay2
  exact shapeCast_self _ _

/-- The index a sum over the three lanes reads: the row's index with the lane appended. -/
private theorem lift_add (h : S8x128x3.Reduces [2] S8x128) (n : Fin 8) (r : Fin 128) (c : Fin 3) :
    h.lift (ix2 n r) c = ix3 n r c := by
  funext a
  match a with
  | ⟨0, _⟩ => rfl
  | ⟨1, _⟩ => rfl
  | ⟨2, _⟩ => rfl

/-- The first three lanes of a row, cut out of the four. -/
private theorem slice_apply (x0 : Vec Ideal S8x128x4 .f32) (h : S8x128x4.Slices ![0, 0, 0] S8x128x3)
    (n : Fin 8) (r : Fin 128) (c : Fin 3) :
    extractStridedSlice S8x128x3 ![0, 0, 0] x0 h (ix3 n r c) = x0 (ix3 n r ⟨c.val, by omega⟩) :=
  extractStridedSlice_apply _ _ _ _ _ (fun a => by
    match a with
    | ⟨0, _⟩ => exact (Nat.zero_add _).symm
    | ⟨1, _⟩ => exact (Nat.zero_add _).symm
    | ⟨2, _⟩ => exact (Nat.zero_add _).symm)

/-- The squared norm of a row's first three lanes. -/
private theorem sq_apply (x0 : Vec Ideal S8x128x4 .f32) (n : Fin 8) (r : Fin 128) :
    k0_pay4 (F := Ideal) x0 (ix2 n r)
      = ∑ c : Fin 3, x0 (ix3 n r ⟨c.val, by omega⟩) * x0 (ix3 n r ⟨c.val, by omega⟩) := by
  unfold k0_pay4
  rw [pay2_eq]
  refine (Ideal.multiReduction_add_single (φ := .f32) _ _ reduces_S8x128x3_S8x128 _ _ (ix2 n r)).trans ?_
  refine Finset.sum_congr rfl fun (c : Fin 3) _ => ?_
  refine (congrArg (mulf _ _) (lift_add reduces_S8x128x3_S8x128 n r c)).trans ?_
  show extractStridedSlice S8x128x3 ![0, 0, 0] x0 _ (ix3 n r c) * extractStridedSlice S8x128x3 ![0, 0, 0] x0 _ (ix3 n r c) = _
  rw [slice_apply]

/-- The product's dimension numbers: batch axis 0, the row tile's lane axis against the column block's axis 1. -/
private abbrev DD : DotDims S8x128x4 S8x4x4096 S8x128x4096 := dot_S8x128x4_S8x4x4096_S8x128x4096_2_1_1_2_0_0

private theorem lhs_0 (i : S8x128x4096.Idx) (q : DD.contr.Idx) : (DD.lhsIdx i q 0).val = (i 0).val := by
  unfold DotDims.lhsIdx
  rw [dif_pos (show (0 : Fin S8x128x4.rank) ∈ DD.lhsBatch by decide)]
  rfl
private theorem lhs_1 (i : S8x128x4096.Idx) (q : DD.contr.Idx) : (DD.lhsIdx i q 1).val = (i 1).val := by
  unfold DotDims.lhsIdx
  rw [dif_neg (show ¬(1 : Fin S8x128x4.rank) ∈ DD.lhsBatch by decide),
    dif_pos (show (1 : Fin S8x128x4.rank) ∈ DD.lhsNonContracting by decide)]
  rfl
private theorem lhs_2 (i : S8x128x4096.Idx) (q : DD.contr.Idx) : (DD.lhsIdx i q 2).val = (q ⟨0, by decide⟩).val :=
  DD.lhsIdx_val_of_single rfl i q
private theorem rhs_0 (i : S8x128x4096.Idx) (q : DD.contr.Idx) : (DD.rhsIdx i q 0).val = (i 0).val := by
  unfold DotDims.rhsIdx
  rw [dif_pos (show (0 : Fin S8x4x4096.rank) ∈ DD.rhsBatch by decide)]
  rfl
private theorem rhs_1 (i : S8x128x4096.Idx) (q : DD.contr.Idx) : (DD.rhsIdx i q 1).val = (q ⟨0, by decide⟩).val :=
  DD.rhsIdx_val_of_single rfl i q
private theorem rhs_2 (i : S8x128x4096.Idx) (q : DD.contr.Idx) : (DD.rhsIdx i q 2).val = (i 2).val := by
  unfold DotDims.rhsIdx
  rw [dif_neg (show ¬(2 : Fin S8x4x4096.rank) ∈ DD.rhsBatch by decide),
    dif_pos (show (2 : Fin S8x4x4096.rank) ∈ DD.rhsNonContracting by decide)]
  rfl

/-- One entry of the product: the four-term inner product of a row of the tile and a column of the block. -/
private theorem cross_apply (x0 : Vec Ideal S8x128x4 .f32) (x1 : Vec Ideal S8x4x4096 .f32)
    (n : Fin 8) (r : Fin 128) (q : Fin 4096) :
    k0_pay3 (F := Ideal) x0 x1 (ix3 n r q) = ∑ k : Fin 4, x0 (ix3 n r k) * x1 (ix3 n k q) := by
  unfold k0_pay3
  rw [pay2_eq, shapeCast_self]
  simp only [matmul]
  rw [Ideal.matmul_constant_zero_apply, ← Equiv.sum_comp (ValueIdx.contrEquiv1 DD 4 rfl rfl).symm]
  refine Finset.sum_congr rfl fun k _ => ?_
  have hk := ValueIdx.contrEquiv1_symm_val DD 4 rfl rfl k
  have el : DD.lhsIdx (ix3 n r q) ((ValueIdx.contrEquiv1 DD 4 rfl rfl).symm k) = ix3 n r k :=
    funext fun a => Fin.ext (by
      match a with
      | ⟨0, _⟩ => exact lhs_0 _ _
      | ⟨1, _⟩ => exact lhs_1 _ _
      | ⟨2, _⟩ => exact (lhs_2 _ _).trans hk)
  have er : DD.rhsIdx (ix3 n r q) ((ValueIdx.contrEquiv1 DD 4 rfl rfl).symm k) = ix3 n k q :=
    funext fun a => Fin.ext (by
      match a with
      | ⟨0, _⟩ => exact rhs_0 _ _
      | ⟨1, _⟩ => exact (rhs_1 _ _).trans hk
      | ⟨2, _⟩ => exact rhs_2 _ _)
  rw [el, er]

/-- The index a minimum over the columns reads: the row's index with the column appended. -/
private theorem lift_row (h : S8x128x4096.Reduces [2] S8x128) (n : Fin 8) (r : Fin 128) (q : Fin 4096) :
    h.lift (ix2 n r) q = ix3 n r q := by
  funext a
  match a with
  | ⟨0, _⟩ => rfl
  | ⟨1, _⟩ => rfl
  | ⟨2, _⟩ => rfl

/-- The index a minimum over the tile's rows reads: the row inserted between the cloud and the column. -/
private theorem lift_col (h : S8x128x4096.Reduces [1] S8x4096) (n : Fin 8) (q : Fin 4096) (r : Fin 128) :
    h.lift (ix2 n q) r = ix3 n r q := by
  funext a
  match a with
  | ⟨0, _⟩ => rfl
  | ⟨1, _⟩ => rfl
  | ⟨2, _⟩ => rfl

/-- One number per row, written as a column and repeated along the columns, reads the row's number everywhere. -/
private theorem keep_apply (v : FVec Ideal S8x128 .f32) (hc : S8x128.ShapeCasts S8x128x1)
    (hb : S8x128x1.Broadcasts S8x128x4096) (n : Fin 8) (r : Fin 128) (q : Fin 4096) :
    broadcastTo S8x128x4096 (shapeCast S8x128x1 v hc) hb (ix3 n r q) = v (ix2 n r) := by
  refine (broadcastTo_apply _ hb (ix3 n r q) (ix3 n r (0 : Fin 1)) fun a => ?_).trans ?_
  · match a with
    | ⟨0, _⟩ => rfl
    | ⟨1, _⟩ => rfl
    | ⟨2, _⟩ => rfl
  · exact shapeCast_apply v hc (ix3 n r (0 : Fin 1)) (ix2 n r) (by
      rw [Shape.rowMajor_val_two, Shape.rowMajor_val_three]
      show n.val * 128 + r.val = (n.val * 128 + r.val) * 1 + 0
      omega)

/-- Over the 4096 columns, the minimum of a row's inner products. -/
private theorem rowmin_apply (x0 : Vec Ideal S8x128x4 .f32) (x1 : Vec Ideal S8x4x4096 .f32) (n : Fin 8) (r : Fin 128) :
    multiReduction (F := Ideal) .minimumf [2] S8x128 (k0_pay3 (F := Ideal) x0 x1) 0x7F800000#32
        reduces_S8x128x4096_S8x128 (.inl rfl) rfl (ix2 n r)
      = (Finset.univ : Finset (Fin 4096)).fold min ⊤ fun q => ∑ k : Fin 4, x0 (ix3 n r k) * x1 (ix3 n k q) := by
  refine (Cert.Lib.MinFold.multiReduction_minimumf_single (φ := .f32) _ _ reduces_S8x128x4096_S8x128 _ _ (ix2 n r)).trans ?_
  have e0 : (FloatOps.ofBits (F := Ideal) .f32 0x7F800000#32 : Ideal .f32) = ⊤ := Cert.Lib.MinFold.ofBits_inf_f32
  rw [e0]
  exact Finset.fold_congr fun q _ =>
    (congrArg (k0_pay3 (F := Ideal) x0 x1) (lift_row _ n r q)).trans (cross_apply x0 x1 n r q)

/-- The scratch's first contents: the top element everywhere. -/
theorem pay1_apply (j : S8x4096.Idx) : k0_pay1 (F := Ideal) j = ⊤ := by
  unfold k0_pay1
  rw [shapeCast_self]
  exact Cert.Lib.MinFold.ofBits_inf_f32

/-- The row store: over the 4096 columns the minimum of the inner products, plus the row's squared norm. -/
theorem pay5_apply (x0 : Vec Ideal S8x128x4 .f32) (x1 : Vec Ideal S8x4x4096 .f32) (n : Fin 8) (r : Fin 128) :
    k0_pay5 (F := Ideal) x0 x1 (ix2 n r)
      = ((Finset.univ : Finset (Fin 4096)).fold min ⊤ fun q => ∑ k : Fin 4, x0 (ix3 n r k) * x1 (ix3 n k q))
        + ∑ c : Fin 3, x0 (ix3 n r ⟨c.val, by omega⟩) * x0 (ix3 n r ⟨c.val, by omega⟩) := by
  unfold k0_pay5
  refine (addf_apply _ _ _).trans ?_
  rw [rowmin_apply, sq_apply]

/-- Over the tile's 128 rows, the minimum of the inner product plus the row's squared norm. -/
private theorem colmin_apply (x0 : Vec Ideal S8x128x4 .f32) (x1 : Vec Ideal S8x4x4096 .f32) (n : Fin 8) (q : Fin 4096) :
    multiReduction (F := Ideal) .minimumf [1] S8x4096
        (addf (k0_pay3 (F := Ideal) x0 x1)
          (broadcastTo S8x128x4096 (shapeCast S8x128x1 (k0_pay4 (F := Ideal) x0) shapeCasts_S8x128_S8x128x1)
            broadcasts_S8x128x1_S8x128x4096))
        0x7F800000#32 reduces_S8x128x4096_S8x4096 (.inl rfl) rfl (ix2 n q)
      = (Finset.univ : Finset (Fin 128)).fold min ⊤ fun r =>
          (∑ k : Fin 4, x0 (ix3 n r k) * x1 (ix3 n k q))
            + ∑ c : Fin 3, x0 (ix3 n r ⟨c.val, by omega⟩) * x0 (ix3 n r ⟨c.val, by omega⟩) := by
  refine (Cert.Lib.MinFold.multiReduction_minimumf_single (φ := .f32) _ _ reduces_S8x128x4096_S8x4096 _ _ (ix2 n q)).trans ?_
  have e0 : (FloatOps.ofBits (F := Ideal) .f32 0x7F800000#32 : Ideal .f32) = ⊤ := Cert.Lib.MinFold.ofBits_inf_f32
  rw [e0]
  refine Finset.fold_congr fun (r : Fin 128) _ => ?_
  refine (congrArg (addf _ _) (lift_col _ n q r)).trans ?_
  refine (addf_apply _ _ _).trans ?_
  rw [cross_apply, keep_apply, sq_apply]

/-- The scratch store: the minimum of what the scratch held and, over the tile's 128 rows, of the inner product plus
    the row's squared norm. -/
theorem pay6_apply (x0 : Vec Ideal S8x128x4 .f32) (x1 : Vec Ideal S8x4x4096 .f32) (xs : Vec Ideal S8x4096 .f32)
    (n : Fin 8) (q : Fin 4096) :
    k0_pay6 (F := Ideal) x0 x1 xs (ix2 n q)
      = min (xs (ix2 n q)) ((Finset.univ : Finset (Fin 128)).fold min ⊤ fun r =>
          (∑ k : Fin 4, x0 (ix3 n r k) * x1 (ix3 n k q))
            + ∑ c : Fin 3, x0 (ix3 n r ⟨c.val, by omega⟩) * x0 (ix3 n r ⟨c.val, by omega⟩)) := by
  unfold k0_pay6
  rw [shapeCast_self]
  refine (minimumf_apply _ _ _).trans ?_
  rw [colmin_apply]

/-- The last store: the scratch, viewed with a leading axis of one. -/
theorem pay7_apply (xs : Vec Ideal S8x4096 .f32) (n : Fin 8) (q : Fin 4096) :
    k0_pay7 (F := Ideal) xs (ix3 (0 : Fin 1) n q) = xs (ix2 n q) := by
  unfold k0_pay7
  exact shapeCast_ab_1ab_apply _ _ _ _ _

end Cert.KernelIdeal.PayValue

end
-- ==== Proof.KernelValue.lean ====
/-
  What the region leaves in its two output arrays, as functions of the two arrays it is launched on.

  The grid has two halves of sixteen points; point `t` reads rows `128·t … 128·t + 127` of the augmented first cloud
  and the whole augmented second cloud.  Its row output is, for each of its rows, the minimum over all columns of the
  inner product plus the row's squared norm: block `t` of the row array.  The scratch holds, after point `t`, the
  minimum over the rows of the half seen so far of the inner product plus the squared norm — by induction on the point:
  the first point of a half starts from the top element, every other point takes the minimum of what the point before
  left and of its own tile —, and the last point of a half writes it to that half's slab of the column array.
-/
import proofs.«142549_j74560632259515_2_alg».proof.Proof.Gen.KernelIdeal.Frame
import proofs.«142549_j74560632259515_2_alg».proof.Proof.ChamferSpec
import proofs.«142549_j74560632259515_2_alg».proof.Proof.MinAlgebra
import proofs.«142549_j74560632259515_2_alg».proof.Proof.KernelPieces
import proofs.«142549_j74560632259515_2_alg».proof.Proof.KernelPayload
import Idealize.ShloMosaic.Lib.Pipeline.Value

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Chamfer

variable (m : (ℓ : Loc nD τ sig) → Buf (Elt Ideal) ℓ)

/-! ## The printed index maps over the grid -/

theorem tlt (t : Fin cfg0.N) : t.val < 32 := lt_of_lt_of_eq t.isLt (show cfg0.N = 32 from N_0)

/-- The first operand's block at point `t` is block `(0, t, 0)`. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

/-- The second operand's block is the whole array at every point. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)

/-- The row output's block at point `t` is block `(0, t)`. -/
theorem idx2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- The column output's block at point `t` is the slab of the half `t / 16`. -/
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, win0_3.index t (0 : Fin 3) = t.val / 16 ∧ win0_3.index t (1 : Fin 3) = 0 ∧ win0_3.index t (2 : Fin 3) = 0)

/-! ## The input blocks read at an entry -/

/-- The first operand's block at point `t`: 128 rows of the augmented first cloud. -/
abbrev blk0 (c : Dev nD) (t : Fin cfg0.N) : S8x128x4.Idx → EReal := iblk m c 0 t
/-- The second operand's block at point `t`: the whole augmented second cloud. -/
abbrev blk1 (c : Dev nD) (t : Fin cfg0.N) : S8x4x4096.Idx → EReal := iblk m c 1 t

/-- Row `r` of the first operand's block at point `t` is row `128·t + r` of the array. -/
theorem iblk0_apply (c : Dev nD) (t : Fin cfg0.N) (n : Fin 8) (r : Fin 128) (k : Fin 4) :
    blk0 m c t (ix3 n r k)
      = V m c main_v1 (ix3 n (⟨128 * t.val + r.val, by have := tlt t; have := r.isLt; omega⟩ : Fin 4096) k) := by
  obtain ⟨e0, e1, e2⟩ := idx0 t
  unfold blk0 iblk
  rw [View.read_apply]
  show V m c main_v1 (((cfg0.win 0).blk t).view.emb (ix3 n r k)) = _
  refine congrArg (V m c main_v1) ?_
  funext a
  apply Fin.ext
  match a with
  | ⟨0, _⟩ => show win0_0.index t (0 : Fin 3) * 8 + 1 * n.val = n.val; omega
  | ⟨1, _⟩ => show win0_0.index t (1 : Fin 3) * 128 + 1 * r.val = 128 * t.val + r.val; omega
  | ⟨2, _⟩ => show win0_0.index t (2 : Fin 3) * 4 + 1 * k.val = k.val; omega

/-- The second operand's block is the array. -/
theorem iblk1_apply (c : Dev nD) (t : Fin cfg0.N) (n : Fin 8) (k : Fin 4) (q : Fin 4096) :
    blk1 m c t (ix3 n k q) = V m c main_v8 (ix3 n k q) := by
  obtain ⟨e0, e1, e2⟩ := idx1 t
  unfold blk1 iblk
  rw [View.read_apply]
  show V m c main_v8 (((cfg0.win 1).blk t).view.emb (ix3 n k q)) = _
  refine congrArg (V m c main_v8) ?_
  funext a
  apply Fin.ext
  match a with
  | ⟨0, _⟩ => show win0_1.index t (0 : Fin 3) * 8 + 1 * n.val = n.val; omega
  | ⟨1, _⟩ => show win0_1.index t (1 : Fin 3) * 4 + 1 * k.val = k.val; omega
  | ⟨2, _⟩ => show win0_1.index t (2 : Fin 3) * 4096 + 1 * q.val = q.val; omega

/-! ## The scratch after each point -/

/-- The minimum, over the rows of the half seen up to point `t`, of the squared distance in the second arrangement. -/
def scrSpec (c : Dev nD) (t : ℕ) : S8x4096.Idx → EReal := fun j =>
  (Finset.range (128 * (t % 16 + 1))).fold min ⊤ fun s =>
    distAugN (V m c main_v1) (V m c main_v8) (j 0) (2048 * (t / 16) + s) (j 1)

/-- The tile's part of the scratch store: the minimum over the tile's 128 rows, which are rows `128·t + r`. -/
theorem tile_fold (c : Dev nD) (t : Fin cfg0.N) (n : Fin 8) (q : Fin 4096) :
    ((Finset.univ : Finset (Fin 128)).fold min ⊤ fun r =>
        (∑ k : Fin 4, blk0 m c t (ix3 n r k) * blk1 m c t (ix3 n k q))
          + ∑ c' : Fin 3, blk0 m c t (ix3 n r ⟨c'.val, by omega⟩)
              * blk0 m c t (ix3 n r ⟨c'.val, by omega⟩))
      = (Finset.univ : Finset (Fin 128)).fold min ⊤ fun r =>
          distAugN (V m c main_v1) (V m c main_v8) n (128 * t.val + r.val) q := by
  refine Finset.fold_congr fun r _ => ?_
  have hlt : 128 * t.val + r.val < 4096 := by have := tlt t; have := r.isLt; omega
  unfold distAugN
  rw [dif_pos hlt]
  unfold distAug cross sq3
  simp only [iblk0_apply, iblk1_apply]

/-- THE INVARIANT: after point `t` the scratch holds the minimum over the rows of its half seen so far. -/
theorem scr_eq (c : Dev nD) : ∀ (t : ℕ) (ht : t < cfg0.N), (outsAt0 m c t ht).2.2 = scrSpec m c t := by
  intro t
  induction t using Nat.strong_induction_on with
  | _ t ih =>
    intro ht
    have h32 : t < 32 := lt_of_lt_of_eq ht (show cfg0.N = 32 from N_0)
    funext j
    obtain ⟨n, q, rfl⟩ : ∃ (n : Fin 8) (q : Fin 4096), j = ix2 n q := ⟨j 0, j 1, eq_ix2 j⟩
    by_cases h0 : t % 16 = 0
    · rw [Pieces.scr_at_first m c ⟨t, ht⟩ h0, PayValue.pay6_apply, PayValue.pay1_apply, tile_fold, min_eq_right le_top]
      show _ = (Finset.range (128 * (t % 16 + 1))).fold min ⊤ fun s =>
        distAugN (V m c main_v1) (V m c main_v8) n (2048 * (t / 16) + s) q
      rw [h0, fold_range_eq_univ]
      refine Finset.fold_congr fun r _ => ?_
      show distAugN _ _ n (128 * t + r.val) q = distAugN _ _ n (2048 * (t / 16) + r.val) q
      rw [show 128 * t + r.val = 2048 * (t / 16) + r.val by omega]
    · rw [Pieces.scr_at_next m c ⟨t, ht⟩ h0, PayValue.pay6_apply, tile_fold]
      have ih' := ih (t - 1) (by omega) (Nat.lt_of_le_of_lt (Nat.sub_le _ _) ht)
      show min ((outsAt0 m c (t - 1) _).2.2 (ix2 n q)) _ = _
      rw [ih']
      show min ((Finset.range (128 * ((t - 1) % 16 + 1))).fold min ⊤ fun s =>
          distAugN (V m c main_v1) (V m c main_v8) n (2048 * ((t - 1) / 16) + s) q) _
        = (Finset.range (128 * (t % 16 + 1))).fold min ⊤ fun s =>
          distAugN (V m c main_v1) (V m c main_v8) n (2048 * (t / 16) + s) q
      rw [show 128 * (t % 16 + 1) = 128 * (t % 16) + 128 by omega, fold_range_add,
        show (t - 1) % 16 + 1 = t % 16 by omega, show (t - 1) / 16 = t / 16 by omega]
      refine congrArg (min _) (Finset.fold_congr fun r _ => ?_)
      show distAugN _ _ n (128 * t + r.val) q = distAugN _ _ n (2048 * (t / 16) + (128 * (t % 16) + r.val)) q
      rw [show 128 * t + r.val = 2048 * (t / 16) + (128 * (t % 16) + r.val) by omega]

/-! ## The row output -/

/-- Row `r` of what point `t` leaves in the row output is entry `128·t + r` of the row minima. -/
theorem out2_eq (c : Dev nD) (t : Fin cfg0.N) (n : Fin 8) (r : Fin 128) :
    (outsAt0 m c t.val t.isLt).1 (ix2 n r)
      = rowAug (V m c main_v1) (V m c main_v8)
          (ix2 n (⟨128 * t.val + r.val, by have := tlt t; have := r.isLt; omega⟩ : Fin 4096)) := by
  rw [Pieces.out2_at, PayValue.pay5_apply]
  unfold rowAug cross sq3
  simp only [iblk0_apply, iblk1_apply]

/-- An entry of the row array is in point `t`'s block iff each coordinate is in the block's range. -/
theorem mem_blk2 (t : Fin cfg0.N) (i : S8x4096.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v9_0).slice (win0_2.rect t)).set ↔ _
  rw [View.set_slice_whole, Rect.mem_set_unit]
  exact Iff.rfl

/-- What point `t` writes back is block `t` of the row minima. -/
theorem flushed2_eq (c : Dev nD) (t : Fin cfg0.N) (hf : (cfg0.win 2).flush t = true) :
    (dats m 0 c).flushed 2 t = ((cfg0.win 2).blk t).view.read (Elt Ideal) (rowAug (V m c main_v1) (V m c main_v8)) := by
  show (cfg0.win 2).cut (grid0.coords t) ((dats m 0 c).after 2 t) = _
  rw [after0_2]
  obtain ⟨e0, e1⟩ := idx2 t
  funext j
  obtain ⟨n, r, rfl⟩ : ∃ (n : Fin 8) (r : Fin 128), j = ix2 n r := ⟨j 0, j 1, eq_ix2 j⟩
  rw [View.read_apply]
  show (outsAt0 m c t.val t.isLt).1 (ix2 n r) = rowAug (V m c main_v1) (V m c main_v8) (((cfg0.win 2).blk t).view.emb (ix2 n r))
  rw [out2_eq]
  refine congrArg (rowAug (V m c main_v1) (V m c main_v8)) ?_
  funext a
  apply Fin.ext
  match a with
  | ⟨0, _⟩ => show n.val = win0_2.index t (0 : Fin 2) * 8 + 1 * n.val; omega
  | ⟨1, _⟩ => show 128 * t.val + r.val = win0_2.index t (1 : Fin 2) * 128 + 1 * r.val; omega

/-- Every entry of the row array is in the block of the point that holds its row. -/
theorem cover2 (i : S8x4096.Idx) : ∃ t : Fin cfg0.N, (cfg0.win 2).flush t = true ∧ i ∈ ((cfg0.win 2).blk t).view.set := by
  have h0 : (i 0).val < 8 := (i 0).isLt
  have h1 : (i 1).val < 4096 := (i 1).isLt
  refine ⟨⟨(i 1).val / 128, by rw [show cfg0.N = 32 from N_0]; omega⟩, flush0_2 _, ?_⟩
  rw [mem_blk2]
  obtain ⟨e0, e1⟩ := idx2 ⟨(i 1).val / 128, by rw [show cfg0.N = 32 from N_0]; omega⟩
  intro a
  match a with
  | ⟨0, _⟩ => show win0_2.index _ (0 : Fin 2) * 8 ≤ (i 0).val ∧ (i 0).val < win0_2.index _ (0 : Fin 2) * 8 + 8; rw [e0]; omega
  | ⟨1, _⟩ => show win0_2.index _ (1 : Fin 2) * 128 ≤ (i 1).val ∧ (i 1).val < win0_2.index _ (1 : Fin 2) * 128 + 128; rw [e1]; dsimp only; omega

/-- THE ROW ARRAY after the run: the row minima of the second arrangement. -/
theorem final2 (c : Dev nD) : (dats m 0 c).arrAt 2 cfg0.N = rowAug (V m c main_v1) (V m c main_v8) :=
  (dats m 0 c).arrAt_eq_of_cover 2 (rowAug (V m c main_v1) (V m c main_v8)) (flushed2_eq m c) cover2

/-! ## The column output -/

/-- An entry of the column array is in point `t`'s block iff each coordinate is in the block's range. -/
theorem mem_blk3 (t : Fin cfg0.N) (i : S2x8x4096.Idx) :
    i ∈ ((cfg0.win 3).blk t).view.set ↔ ∀ a : Fin 3, win0_3.index t a * S1x8x4096.size a ≤ (i a).val ∧ (i a).val < win0_3.index t a * S1x8x4096.size a + S1x8x4096.size a := by
  show i ∈ ((View.whole main_v9_1).slice (win0_3.rect t)).set ↔ _
  rw [View.set_slice_whole, Rect.mem_set_unit]
  exact Iff.rfl

/-- What the last point of a half writes back is that half's slab of the column minima. -/
theorem flushed3_eq (c : Dev nD) (t : Fin cfg0.N) (hf : (cfg0.win 3).flush t = true) :
    (dats m 0 c).flushed 3 t = ((cfg0.win 3).blk t).view.read (Elt Ideal) (colHalfAug (V m c main_v1) (V m c main_v8)) := by
  have h15 : t.val % 16 = 15 := (flush0_3 t).mp hf
  have h32 := tlt t
  show (cfg0.win 3).cut (grid0.coords t) ((dats m 0 c).after 3 t) = _
  rw [after0_3, Pieces.out3_at_last m c t h15]
  obtain ⟨e0, e1, e2⟩ := idx3 t
  funext j
  obtain ⟨z, n, q, rfl⟩ : ∃ (z : Fin 1) (n : Fin 8) (q : Fin 4096), j = ix3 z n q := ⟨j 0, j 1, j 2, eq_ix3 j⟩
  obtain rfl : z = 0 := Subsingleton.elim _ _
  rw [View.read_apply]
  show k0_pay7 (F := Ideal) (outsAt0 m c t.val t.isLt).2.2 (ix3 (0 : Fin 1) n q)
    = colHalfAug (V m c main_v1) (V m c main_v8) (((cfg0.win 3).blk t).view.emb (ix3 (0 : Fin 1) n q))
  rw [PayValue.pay7_apply, scr_eq]
  have e : ((cfg0.win 3).blk t).view.emb (ix3 (0 : Fin 1) n q)
      = ix3 (⟨t.val / 16, by omega⟩ : Fin 2) n q := by
    funext a
    apply Fin.ext
    match a with
    | ⟨0, _⟩ => show win0_3.index t (0 : Fin 3) * 1 + 1 * 0 = t.val / 16; omega
    | ⟨1, _⟩ => show win0_3.index t (1 : Fin 3) * 8 + 1 * n.val = n.val; omega
    | ⟨2, _⟩ => show win0_3.index t (2 : Fin 3) * 4096 + 1 * q.val = q.val; omega
  rw [e]
  show (Finset.range (128 * (t.val % 16 + 1))).fold min ⊤ (fun s =>
      distAugN (V m c main_v1) (V m c main_v8) n (2048 * (t.val / 16) + s) q)
    = (Finset.range 2048).fold min ⊤ fun s => distAugN (V m c main_v1) (V m c main_v8) n (2048 * (t.val / 16) + s) q
  rw [h15]

/-- Every entry of the column array is in the block of the last point of its half. -/
theorem cover3 (i : S2x8x4096.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 4096 := (i 2).isLt
  have hlt : 16 * (i 0).val + 15 < cfg0.N := by rw [show cfg0.N = 32 from N_0]; omega
  refine ⟨⟨16 * (i 0).val + 15, hlt⟩, (flush0_3 _).mpr (by dsimp only; omega), ?_⟩
  rw [mem_blk3]
  obtain ⟨e0, e1, e2⟩ := idx3 ⟨16 * (i 0).val + 15, hlt⟩
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 8 ≤ (i 1).val ∧ (i 1).val < win0_3.index _ (1 : Fin 3) * 8 + 8; rw [e1]; omega
  | ⟨2, _⟩ => show win0_3.index _ (2 : Fin 3) * 4096 ≤ (i 2).val ∧ (i 2).val < win0_3.index _ (2 : Fin 3) * 4096 + 4096; rw [e2]; omega

/-- THE COLUMN ARRAY after the run: per half, the column minima of the second arrangement. -/
theorem final3 (c : Dev nD) : (dats m 0 c).arrAt 3 cfg0.N = colHalfAug (V m c main_v1) (V m c main_v8) :=
  (dats m 0 c).arrAt_eq_of_cover 3 (colHalfAug (V m c main_v1) (V m c main_v8)) (flushed3_eq m c) cover3

end Cert.KernelIdeal.KValue

end
-- ==== Proof.KernelArgs.lean ====
/-
  The two arrays the region is launched on, as functions of the clouds: the first cloud with the coordinate `1`
  appended to every point, and the second with every point replaced by `(−2·y, |y|²)` and the point axis moved last.
-/
import proofs.«142549_j74560632259515_2_alg».proof.Proof.Gen.KernelIdeal.Frame
import proofs.«142549_j74560632259515_2_alg».proof.Proof.ChamferSpec
import Idealize.ShloMosaic.Lib.Pipeline.Value
import Idealize.ShloMosaic.Lib.ValueIdx
import Idealize.ShloMosaic.PureOps.Ideal.Laws

noncomputable section

namespace Cert.KernelIdeal.ArgValue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- A cloud with the constant one appended along the last axis, read at an index. -/
theorem xaug_read (x : FVec Ideal S8x4096x3 .f32) :
    concatenate S8x4096x4 2
      [⟨S8x4096x3, x⟩,
        ⟨S8x4096x1, broadcastInDim S8x4096x1 ![] bcast_S_S8x4096x1 (constant (F := Ideal) S_ FTy.f32 0x3F800000#32)⟩]
      concatenates_S8x4096x3_S8x4096x1_S8x4096x4_d2 = Chamfer.augX x := by
  funext j
  obtain ⟨n, p, k, rfl⟩ : ∃ (n : Fin 8) (p : Fin 4096) (k : Fin 4), j = ix3 n p k := ⟨j 0, j 1, j 2, eq_ix3 j⟩
  by_cases hk : k.val < 3
  · rw [concatenate_pair_apply_left (2 : Fin 3) x _ concatenates_S8x4096x3_S8x4096x1_S8x4096x4_d2 (ix3 n p k) rfl
      (ix3 n p ⟨k.val, hk⟩) (fun b => match b with | ⟨0, _⟩ => rfl | ⟨1, _⟩ => rfl | ⟨2, _⟩ => rfl)]
    unfold Chamfer.augX
    rw [dif_pos hk]
  · rw [concatenate_pair_apply_right (t := S8x4096x4) (s₁ := S8x4096x3) (s₂ := S8x4096x1) (2 : Fin 3) x _ concatenates_S8x4096x3_S8x4096x1_S8x4096x4_d2 (ix3 n p k) rfl rfl
      (ix3 n p (0 : Fin 1) : S8x4096x1.Idx) (fun b => match b with | ⟨0, _⟩ => fun _ => rfl | ⟨1, _⟩ => fun _ => rfl | ⟨2, _⟩ => fun h => absurd rfl h)
      (by show 0 + 3 = k.val; omega)]
    unfold Chamfer.augX
    rw [dif_neg hk]
    rfl

/-- The first operand of the region: the first cloud, augmented. -/
theorem V_xaug (c : Dev nD) :
    (V m c main_v1 : S8x4096x4.Idx → EReal) = Chamfer.augX (m ((c : Thread nD τ).loc main_arg0)) := by
  have e : (V m c main_v1 : S8x4096x4.Idx → EReal) = concatenate S8x4096x4 2
      [⟨S8x4096x3, m (c, Proc.tc.devRef main_arg0)⟩,
        ⟨S8x4096x1, broadcastInDim S8x4096x1 ![] bcast_S_S8x4096x1 (constant (F := Ideal) S_ FTy.f32 0x3F800000#32)⟩]
      concatenates_S8x4096x3_S8x4096x1_S8x4096x4_d2 := by
    show StableHlo.after hostOps0 (fun b => m (c, b)) (Proc.devRef .tc main_v1) = _
    after_results
  rw [e]
  exact xaug_read (m (c, Proc.tc.devRef main_arg0))

/-- The squared norms as the host computes them. -/
theorem sqn_read (y : FVec Ideal S8x4096x3 .f32) (n : Fin 8) (q : Fin 4096) :
    Host.reduceAdd (mulf y y) (constant (F := Ideal) S_ FTy.f32 0x00000000#32) reducesTo_S8x4096x3_S8x4096_d2 h_S_ (ix2 n q)
      = Chamfer.sqn y n q := by
  simp only [Host.reduceAdd, Ideal.hostReduceAdd_def]
  rw [Ideal.hostReduceAdd_single reducesTo_S8x4096x3_S8x4096_d2 (by decide)]
  show Ideal.ofBits .f32 0x00000000#32 + _ = Ideal.ofBits .f32 0x00000000#32 + _
  refine congrArg (_ + ·) (Finset.sum_congr rfl fun k _ => ?_)
  show y _ * y _ = _
  have e : (Shape.Reduces.lift (by decide : S8x4096x3.Reduces [2] S8x4096) (ix2 n q) k) = ix3 n q k :=
    funext fun a => Fin.ext (by match a with | ⟨0, _⟩ => rfl | ⟨1, _⟩ => rfl | ⟨2, _⟩ => rfl)
  rw [e]
  rfl

/-- The second cloud scaled, transposed and with the squared norms appended, read at an index. -/
theorem yaug_read (y : FVec Ideal S8x4096x3 .f32) :
    concatenate S8x4x4096 1
      [⟨S8x3x4096,
          mulf (broadcastInDim S8x3x4096 ![] bcast_S_S8x3x4096 (constant (F := Ideal) S_ FTy.f32 0xC0000000#32))
            (transpose S8x3x4096 [0, 2, 1] y transposes_S8x4096x3_S8x3x4096_0_2_1)⟩,
        ⟨S8x1x4096,
          broadcastInDim S8x1x4096 ![0, 2] bcast_S8x4096_S8x1x4096_0_2
            (Host.reduceAdd (mulf y y) (constant (F := Ideal) S_ FTy.f32 0x00000000#32) reducesTo_S8x4096x3_S8x4096_d2 h_S_)⟩]
      concatenates_S8x3x4096_S8x1x4096_S8x4x4096_d1 = Chamfer.augY y := by
  funext j
  obtain ⟨n, k, q, rfl⟩ : ∃ (n : Fin 8) (k : Fin 4) (q : Fin 4096), j = ix3 n k q := ⟨j 0, j 1, j 2, eq_ix3 j⟩
  by_cases hk : k.val < 3
  · rw [concatenate_pair_apply_left (t := S8x4x4096) (s₁ := S8x3x4096) (s₂ := S8x1x4096) (1 : Fin 3) _ _ concatenates_S8x3x4096_S8x1x4096_S8x4x4096_d1 (ix3 n k q) rfl
      (ix3 n (⟨k.val, hk⟩ : Fin 3) q : S8x3x4096.Idx) (fun b => match b with | ⟨0, _⟩ => rfl | ⟨1, _⟩ => rfl | ⟨2, _⟩ => rfl)]
    unfold Chamfer.augY
    rw [dif_pos hk]
    show Ideal.ofBits .f32 0xC0000000#32 * transpose S8x3x4096 [0, 2, 1] y transposes_S8x4096x3_S8x3x4096_0_2_1 (ix3 n (⟨k.val, hk⟩ : Fin 3) q) = _
    rw [transpose_apply (s := S8x4096x3) (t := S8x3x4096) [0, 2, 1] y transposes_S8x4096x3_S8x3x4096_0_2_1 (ix3 n (⟨k.val, hk⟩ : Fin 3) q) (ix3 n q (⟨k.val, hk⟩ : Fin 3))
      (fun b => match b with | ⟨0, _⟩ => rfl | ⟨1, _⟩ => rfl | ⟨2, _⟩ => rfl)]
  · rw [concatenate_pair_apply_right (t := S8x4x4096) (s₁ := S8x3x4096) (s₂ := S8x1x4096) (1 : Fin 3) _ _ concatenates_S8x3x4096_S8x1x4096_S8x4x4096_d1 (ix3 n k q) rfl rfl
      (ix3 n (0 : Fin 1) q : S8x1x4096.Idx) (fun b => match b with | ⟨0, _⟩ => fun _ => rfl | ⟨1, _⟩ => fun h => absurd rfl h | ⟨2, _⟩ => fun _ => rfl)
      (by show 0 + 3 = k.val; omega)]
    unfold Chamfer.augY
    rw [dif_neg hk]
    rw [broadcastInDim_apply _ bcast_S8x4096_S8x1x4096_0_2 _ (ix3 n (0 : Fin 1) q) (ix2 n q) (fun a => match a with
      | ⟨0, _⟩ => by show n.val = if (8 : Nat) = 1 then 0 else n.val; rw [if_neg (by decide)]
      | ⟨1, _⟩ => by show q.val = if (4096 : Nat) = 1 then 0 else q.val; rw [if_neg (by decide)])]
    exact sqn_read y n q

/-- The second operand of the region: the second cloud, augmented and transposed. -/
theorem V_yaug (c : Dev nD) :
    (V m c main_v8 : S8x4x4096.Idx → EReal) = Chamfer.augY (m ((c : Thread nD τ).loc main_arg1)) := by
  have e : (V m c main_v8 : S8x4x4096.Idx → EReal) = concatenate S8x4x4096 1
      [⟨S8x3x4096,
          mulf (broadcastInDim S8x3x4096 ![] bcast_S_S8x3x4096 (constant (F := Ideal) S_ FTy.f32 0xC0000000#32))
            (transpose S8x3x4096 [0, 2, 1] (m (c, Proc.tc.devRef main_arg1)) transposes_S8x4096x3_S8x3x4096_0_2_1)⟩,
        ⟨S8x1x4096,
          broadcastInDim S8x1x4096 ![0, 2] bcast_S8x4096_S8x1x4096_0_2
            (Host.reduceAdd (mulf (m (c, Proc.tc.devRef main_arg1)) (m (c, Proc.tc.devRef main_arg1)))
              (constant (F := Ideal) S_ FTy.f32 0x00000000#32) reducesTo_S8x4096x3_S8x4096_d2 h_S_)⟩]
      concatenates_S8x3x4096_S8x1x4096_S8x4x4096_d1 := by
    show StableHlo.after hostOps0 (fun b => m (c, b)) (Proc.devRef .tc main_v8) = _
    after_results
  rw [e]
  exact yaug_read (m (c, Proc.tc.devRef main_arg1))

end Cert.KernelIdeal.ArgValue

end
-- ==== Proof.Bridge.lean ====
/-
  The two arrangements agree on clouds of real numbers.  With a coordinate `1` appended to `x_p` and `y_q` replaced by
  `(−2·y_q, |y_q|²)` the four-term inner product is `|y_q|² − 2·⟨x_p, y_q⟩`; adding `|x_p|²` gives the squared distance
  `(|x_p|² + |y_q|²) − 2·⟨x_p, y_q⟩` — an identity of real numbers, so it needs every entry real.  Adding the real number
  `|x_p|²` commutes with the minimum over `q`, and the minimum over all points is the minimum of the minima over the
  two halves.
-/
import proofs.«142549_j74560632259515_2_alg».proof.Proof.ChamferSpec
import proofs.«142549_j74560632259515_2_alg».proof.Proof.MinAlgebra

noncomputable section

namespace Chamfer

open Idealize.ShloMosaic Idealize.ShloMosaic.ValueIdx

/-! ## The four words, as real numbers -/

/-- The zero word is the real number `0`. -/
theorem word_zero : Ideal.ofBits .f32 0x00000000#32 = ((0 : ℝ) : EReal) := by simp [Ideal.ofBits, Ideal.ieee]
/-- The word of `1.0` is the real number `1`. -/
theorem word_one : Ideal.ofBits .f32 0x3F800000#32 = ((1 : ℝ) : EReal) := by
  simp [Ideal.ofBits, Ideal.ieee, -EReal.coe_mul]; norm_num
/-- The word of `2.0` is the real number `2`. -/
theorem word_two : Ideal.ofBits .f32 0x40000000#32 = ((2 : ℝ) : EReal) := by
  simp [Ideal.ofBits, Ideal.ieee, -EReal.coe_mul]; norm_num
/-- The word of `-2.0` is the real number `-2`. -/
theorem word_neg_two : Ideal.ofBits .f32 0xC0000000#32 = ((-2 : ℝ) : EReal) := by
  simp [Ideal.ofBits, Ideal.ieee, -EReal.coe_mul]; norm_num

/-! ## The augmented clouds, coordinate by coordinate -/

/-- The first three coordinates of an augmented point of `x` are the point's. -/
theorem augX_lt (x : Pts.Idx → EReal) (n : Fin 8) (p : Fin 4096) (c : Fin 3) :
    augX x (ix3 n p (⟨c.val, by omega⟩ : Fin 4)) = x (ix3 n p c) := by
  unfold augX
  exact dif_pos c.isLt

/-- The fourth is `1`. -/
theorem augX_last (x : Pts.Idx → EReal) (n : Fin 8) (p : Fin 4096) :
    augX x (ix3 n p (3 : Fin 4)) = Ideal.ofBits .f32 0x3F800000#32 := by
  unfold augX
  exact dif_neg (show ¬ ((3 : Fin 4).val < 3) by decide)

/-- The first three coordinates of an augmented point of `y` are `−2` times the point's. -/
theorem augY_lt (y : Pts.Idx → EReal) (n : Fin 8) (q : Fin 4096) (c : Fin 3) :
    augY y (ix3 n (⟨c.val, by omega⟩ : Fin 4) q) = Ideal.ofBits .f32 0xC0000000#32 * y (ix3 n q c) := by
  unfold augY
  exact dif_pos c.isLt

/-- The fourth is the point's squared norm. -/
theorem augY_last (y : Pts.Idx → EReal) (n : Fin 8) (q : Fin 4096) :
    augY y (ix3 n (3 : Fin 4) q) = sqn y n q := by
  unfold augY
  exact dif_neg (show ¬ ((3 : Fin 4).val < 3) by decide)

/-- The sum of the squares of the first three coordinates of an augmented point of `x` is that of the point. -/
theorem sq3_augX (x : Pts.Idx → EReal) (n : Fin 8) (p : Fin 4096) :
    sq3 (augX x) n p = ∑ c : Fin 3, x (ix3 n p c) * x (ix3 n p c) := by
  unfold sq3
  exact Finset.sum_congr rfl fun c _ => by rw [augX_lt]

/-- On a real cloud it is a real number. -/
theorem sq3_augX_real (x : Pts.Idx → EReal) (hx : ∀ i, ∃ r : ℝ, x i = (r : EReal)) (n : Fin 8) (p : Fin 4096) :
    ∃ s : ℝ, sq3 (augX x) n p = (s : EReal) := by
  obtain ⟨a0, ha0⟩ := hx (ix3 n p (0 : Fin 3))
  obtain ⟨a1, ha1⟩ := hx (ix3 n p (1 : Fin 3))
  obtain ⟨a2, ha2⟩ := hx (ix3 n p (2 : Fin 3))
  refine ⟨a0 * a0 + a1 * a1 + a2 * a2, ?_⟩
  rw [sq3_augX, Fin.sum_univ_three, ha0, ha1, ha2]
  simp only [EReal.coe_add, EReal.coe_mul]

/-! ## The two arrangements agree -/

/-- On real clouds the second arrangement's squared distance is the first's. -/
theorem distAug_eq (x y : Pts.Idx → EReal) (hx : ∀ i, ∃ r : ℝ, x i = (r : EReal)) (hy : ∀ i, ∃ r : ℝ, y i = (r : EReal))
    (n : Fin 8) (p q : Fin 4096) : distAug (augX x) (augY y) n p q = dist x y n p q := by
  obtain ⟨a0, ha0⟩ := hx (ix3 n p (0 : Fin 3))
  obtain ⟨a1, ha1⟩ := hx (ix3 n p (1 : Fin 3))
  obtain ⟨a2, ha2⟩ := hx (ix3 n p (2 : Fin 3))
  obtain ⟨b0, hb0⟩ := hy (ix3 n q (0 : Fin 3))
  obtain ⟨b1, hb1⟩ := hy (ix3 n q (1 : Fin 3))
  obtain ⟨b2, hb2⟩ := hy (ix3 n q (2 : Fin 3))
  have ex0 : augX x (ix3 n p (0 : Fin 4)) = x (ix3 n p (0 : Fin 3)) := augX_lt x n p 0
  have ex1 : augX x (ix3 n p (1 : Fin 4)) = x (ix3 n p (1 : Fin 3)) := augX_lt x n p 1
  have ex2 : augX x (ix3 n p (2 : Fin 4)) = x (ix3 n p (2 : Fin 3)) := augX_lt x n p 2
  have ey0 : augY y (ix3 n (0 : Fin 4) q) = Ideal.ofBits .f32 0xC0000000#32 * y (ix3 n q (0 : Fin 3)) := augY_lt y n q 0
  have ey1 : augY y (ix3 n (1 : Fin 4) q) = Ideal.ofBits .f32 0xC0000000#32 * y (ix3 n q (1 : Fin 3)) := augY_lt y n q 1
  have ey2 : augY y (ix3 n (2 : Fin 4) q) = Ideal.ofBits .f32 0xC0000000#32 * y (ix3 n q (2 : Fin 3)) := augY_lt y n q 2
  have es : sq3 (augX x) n p = ∑ c : Fin 3, x (ix3 n p c) * x (ix3 n p c) := by
    unfold sq3
    exact Finset.sum_congr rfl fun c _ => by rw [augX_lt]
  unfold distAug
  rw [es]
  unfold cross dist sqn dot3
  rw [Fin.sum_univ_four, Fin.sum_univ_three, Fin.sum_univ_three, Fin.sum_univ_three, ex0, ex1, ex2, ey0, ey1, ey2,
    augX_last, augY_last]
  unfold sqn
  rw [Fin.sum_univ_three, ha0, ha1, ha2, hb0, hb1, hb2, word_zero, word_one, word_two, word_neg_two]
  simp only [← EReal.coe_add, ← EReal.coe_mul, ← EReal.coe_sub]
  rw [EReal.coe_eq_coe_iff]
  ring

/-- The row minima agree: the squared norm may be added after the minimum over the columns. -/
theorem rowAug_eq (x y : Pts.Idx → EReal) (hx : ∀ i, ∃ r : ℝ, x i = (r : EReal)) (hy : ∀ i, ∃ r : ℝ, y i = (r : EReal)) :
    rowAug (augX x) (augY y) = rowMin x y := by
  funext j
  obtain ⟨n, p, rfl⟩ : ∃ (n : Fin 8) (p : Fin 4096), j = ix2 n p := ⟨j 0, j 1, eq_ix2 j⟩
  obtain ⟨s, hs⟩ := sq3_augX_real x hx n p
  show ((Finset.univ : Finset (Fin 4096)).fold min ⊤ fun q => cross (augX x) (augY y) n p q) + sq3 (augX x) n p
    = (Finset.univ : Finset (Fin 4096)).fold min ⊤ fun q => dist x y n p q
  rw [hs, fold_min_add_real]
  refine Finset.fold_congr fun q _ => ?_
  rw [← hs]
  exact distAug_eq x y hx hy n p q

/-- The column minima agree: the minimum of the two halves' minima is the minimum over all rows. -/
theorem colAug_eq (x y : Pts.Idx → EReal) (hx : ∀ i, ∃ r : ℝ, x i = (r : EReal)) (hy : ∀ i, ∃ r : ℝ, y i = (r : EReal))
    (n : Fin 8) (q : Fin 4096) :
    min (colHalfAug (augX x) (augY y) (ix3 (0 : Fin 2) n q)) (colHalfAug (augX x) (augY y) (ix3 (1 : Fin 2) n q))
      = colMin x y (ix2 n q) := by
  have e : ∀ P : ℕ, distAugN (augX x) (augY y) n P q = if h : P < 4096 then dist x y n ⟨P, h⟩ q else ⊤ := by
    intro P
    unfold distAugN
    by_cases h : P < 4096
    · rw [dif_pos h, dif_pos h, distAug_eq x y hx hy]
    · rw [dif_neg h, dif_neg h]
  show min ((Finset.range 2048).fold min ⊤ fun s => distAugN (augX x) (augY y) n (2048 * 0 + s) q)
      ((Finset.range 2048).fold min ⊤ fun s => distAugN (augX x) (augY y) n (2048 * 1 + s) q)
    = (Finset.univ : Finset (Fin 4096)).fold min ⊤ fun p => dist x y n p q
  simp only [e]
  exact (fold_univ_halves fun p => dist x y n p q).symm

end Chamfer

end
-- ==== Proof.RefMinima.lean ====
/-
  The reference's two directed minima read as functions of the clouds: at every point the stage the host's minimum
  reduction writes is the fold of `min` from the top element over the other cloud's points of the squared distance.
-/
import proofs.«142549_j74560632259515_2_alg».proof.Proof.Gen.ReferenceIdeal.Read
import proofs.«142549_j74560632259515_2_alg».proof.Proof.ChamferSpec
import proofs.«142549_j74560632259515_2_alg».proof.Proof.LibMinFold

noncomputable section

namespace Cert.ReferenceIdeal.RefValue

open Idealize.ShloMosaic Idealize.ShloMosaic.ValueIdx Cert.ReferenceIdeal Cert.ReferenceIdeal.Gen

/-- The index the first squared norm is read at. -/
theorem idxA (n : Fin 8) (p q : Fin 4096) (k : Fin 3) :
    Read.idx_main_v9 (Read.idx_main_v21 (Read.idx_main_v23 (ix3 n p q))) k = ix3 n p k :=
  funext fun a => Fin.ext (by match a with | ⟨0, _⟩ => rfl | ⟨1, _⟩ => rfl | ⟨2, _⟩ => rfl)

/-- The index the second squared norm is read at. -/
theorem idxB (n : Fin 8) (p q : Fin 4096) (k : Fin 3) :
    Read.idx_main_v11 (Read.idx_main_v22 (Read.idx_main_v24 (ix3 n p q))) k = ix3 n q k :=
  funext fun a => Fin.ext (by match a with | ⟨0, _⟩ => rfl | ⟨1, _⟩ => rfl | ⟨2, _⟩ => rfl)

/-- The index the inner product reads the first cloud at. -/
theorem idxL (n : Fin 8) (p q : Fin 4096) (k : Fin 3) :
    Read.lidx_main_v12 (ix3 n p q) k = ix3 n p k :=
  funext fun a => Fin.ext (by match a with | ⟨0, _⟩ => rfl | ⟨1, _⟩ => rfl | ⟨2, _⟩ => rfl)

/-- The index the inner product reads the second cloud at. -/
theorem idxR (n : Fin 8) (p q : Fin 4096) (k : Fin 3) :
    Read.ridx_main_v12 (ix3 n p q) k = ix3 n q k :=
  funext fun a => Fin.ext (by match a with | ⟨0, _⟩ => rfl | ⟨1, _⟩ => rfl | ⟨2, _⟩ => rfl)

/-- The stage the two minima reduce, at a point of each cloud, is the squared distance. -/
theorem v28_at (x y : FVec Ideal S8x4096x3 .f32) (n : Fin 8) (p q : Fin 4096) :
    Read.val_main_v28 (F := Ideal) x y (ix3 n p q) = Chamfer.dist x y n p q := by
  rw [Read.val_main_v28_apply, Read.val_main_v25_apply, Read.val_main_v27_apply, Read.val_main_v23_apply,
    Read.val_main_v24_apply, Read.val_main_v21_apply, Read.val_main_v22_apply, Read.val_main_v9_apply,
    Read.val_main_v11_apply, Read.val_main_v12_apply, Read.val_main_v26_apply, Read.val_main_cst_7_apply,
    Read.val_main_cst_4_apply, Read.val_main_cst_5_apply]
  simp only [idxA, idxB, idxL, idxR, Read.val_main_v8_apply, Read.val_main_v10_apply]
  rfl

/-- A point of the first cloud with a point number of the second put back on the last axis. -/
theorem lift2 (h : S8x4096x4096.Reduces [2] S8x4096) (n : Fin 8) (p : Fin 4096) (k : Fin (S8x4096x4096.size 2)) :
    h.lift (ix2 n p) k = ix3 n p (⟨k.val, k.isLt⟩ : Fin 4096) := by
  funext c; apply Fin.ext
  fin_cases c <;> rfl

/-- A point of the second cloud with a point number of the first put back on the middle axis. -/
theorem lift1 (h : S8x4096x4096.Reduces [1] S8x4096) (n : Fin 8) (q : Fin 4096) (k : Fin (S8x4096x4096.size 1)) :
    h.lift (ix2 n q) k = ix3 n (⟨k.val, k.isLt⟩ : Fin 4096) q := by
  funext c; apply Fin.ext
  fin_cases c <;> rfl

/-- The minimum over the second cloud's points, for each point of the first. -/
theorem rowmin_eq (x y : FVec Ideal S8x4096x3 .f32) :
    Read.val_main_v29 (F := Ideal) x y = Chamfer.rowMin x y := by
  have h : S8x4096x4096.Reduces [2] S8x4096 := by decide
  funext j
  obtain ⟨n, p, rfl⟩ : ∃ (n : Fin 8) (p : Fin 4096), j = ix2 n p := ⟨j 0, j 1, eq_ix2 j⟩
  unfold Read.val_main_v29
  rw [Host.reduce_eq_fold_single FloatOps.minimumf _ _ reducesTo_S8x4096x4096_S8x4096_d2 h h_S_]
  rw [Read.val_main_cst_8_apply]
  show Finset.fold min (Ideal.ofBits .f32 0x7F800000#32) _ _ = _
  rw [Cert.Lib.MinFold.ofBits_inf_f32]
  refine congrArg (fun f => Finset.fold min ⊤ f (Finset.univ : Finset (Fin 4096))) (funext fun q => ?_)
  show Read.val_main_v28 (F := Ideal) x y (h.lift (ix2 n p) q) = _
  rw [lift2 h n p q]
  exact v28_at x y n p q

/-- The minimum over the first cloud's points, for each point of the second. -/
theorem colmin_eq (x y : FVec Ideal S8x4096x3 .f32) :
    Read.val_main_v32 (F := Ideal) x y = Chamfer.colMin x y := by
  have h : S8x4096x4096.Reduces [1] S8x4096 := by decide
  funext j
  obtain ⟨n, q, rfl⟩ : ∃ (n : Fin 8) (q : Fin 4096), j = ix2 n q := ⟨j 0, j 1, eq_ix2 j⟩
  unfold Read.val_main_v32
  rw [Host.reduce_eq_fold_single FloatOps.minimumf _ _ reducesTo_S8x4096x4096_S8x4096_d1 h h_S_]
  rw [Read.val_main_cst_11_apply]
  show Finset.fold min (Ideal.ofBits .f32 0x7F800000#32) _ _ = _
  rw [Cert.Lib.MinFold.ofBits_inf_f32]
  refine congrArg (fun f => Finset.fold min ⊤ f (Finset.univ : Finset (Fin 4096))) (funext fun p => ?_)
  show Read.val_main_v28 (F := Ideal) x y (h.lift (ix2 n q) p) = _
  rw [lift1 h n q p]
  exact v28_at x y n p q

end Cert.ReferenceIdeal.RefValue

end
-- ==== Proof.Results.lean ====
/-
  The region's two output arrays are the reference's two minima stages.

  On clouds of real numbers the row array — the row minima of the second arrangement of the augmented clouds — is the
  reference's minimum over the second cloud, and the minimum of the column array's two slabs is the reference's minimum
  over the first cloud: the arrays the region is launched on are the augmented clouds, the second arrangement agrees with
  the first on real clouds, and the reference's stages are the first arrangement's minima.
-/
import proofs.«142549_j74560632259515_2_alg».proof.Proof.KernelValue
import proofs.«142549_j74560632259515_2_alg».proof.Proof.KernelArgs
import proofs.«142549_j74560632259515_2_alg».proof.Proof.Bridge
import proofs.«142549_j74560632259515_2_alg».proof.Proof.RefMinima

noncomputable section

namespace Cert.Proof.Arrays

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The row array after the run. -/
abbrev rowArr (c : Dev nD) : S8x4096.Idx → EReal := (dats m 0 c).arrAt 2 cfg0.N
/-- The column array after the run: one slab per half. -/
abbrev colArr (c : Dev nD) : S2x8x4096.Idx → EReal := (dats m 0 c).arrAt 3 cfg0.N

/-- The row array is the reference's minimum over the second cloud's points. -/
theorem rowArr_eq (c : Dev nD)
    (hx : ∀ i, ∃ r : ℝ, m ((c.tc : Thread nD τ).loc main_arg0) i = (r : EReal))
    (hy : ∀ i, ∃ r : ℝ, m ((c.tc : Thread nD τ).loc main_arg1) i = (r : EReal)) :
    rowArr m c
      = Cert.ReferenceIdeal.Read.val_main_v29 (F := Ideal) (m ((c.tc : Thread nD τ).loc main_arg0)) (m ((c.tc : Thread nD τ).loc main_arg1)) := by
  unfold rowArr
  rw [Cert.KernelIdeal.KValue.final2, Cert.KernelIdeal.ArgValue.V_xaug, Cert.KernelIdeal.ArgValue.V_yaug,
    Chamfer.rowAug_eq _ _ hx hy, Cert.ReferenceIdeal.RefValue.rowmin_eq]

/-- The column array's two slabs, entry by entry, have the reference's minimum over the first cloud's points as their minimum. -/
theorem colArr_eq (c : Dev nD)
    (hx : ∀ i, ∃ r : ℝ, m ((c.tc : Thread nD τ).loc main_arg0) i = (r : EReal))
    (hy : ∀ i, ∃ r : ℝ, m ((c.tc : Thread nD τ).loc main_arg1) i = (r : EReal)) (n : Fin 8) (q : Fin 4096) :
    min (colArr m c (ix3 (0 : Fin 2) n q)) (colArr m c (ix3 (1 : Fin 2) n q))
      = Cert.ReferenceIdeal.Read.val_main_v32 (F := Ideal) (m ((c.tc : Thread nD τ).loc main_arg0)) (m ((c.tc : Thread nD τ).loc main_arg1)) (ix2 n q) := by
  unfold colArr
  rw [Cert.KernelIdeal.KValue.final3, Cert.KernelIdeal.ArgValue.V_xaug, Cert.KernelIdeal.ArgValue.V_yaug,
    Chamfer.colAug_eq _ _ hx hy, Cert.ReferenceIdeal.RefValue.colmin_eq]

end Cert.Proof.Arrays

end
-- ==== Proof.KernelTail.lean ====
/-
  What the program's five results hold after the run, as functions of the region's two output arrays and of the
  likelihoods.

  After the region the program joins the two halves' minima over the points of the first cloud (at every point of the
  second cloud the smaller of the two), sums each of the two arrays of minima and divides by 32768, and adds the two
  quotients: the reconstruction term.  The bit-rate term is the sum of the likelihoods' logarithms to the base two
  (the natural logarithm over the logarithm of two) divided by −8; it is divided by 4096, and the total is that quotient
  plus one times the reconstruction term.
-/
import proofs.«142549_j74560632259515_2_alg».proof.Proof.Gen.KernelIdeal.Frame
import proofs.«142549_j74560632259515_2_alg».proof.Proof.ChamferSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TailValue

open Idealize.ShloMosaic Idealize.ShloMosaic.TcCoe Idealize.ShloMosaic.ValueIdx Idealize.SL.Sem Cert.KernelIdeal Cert.KernelIdeal.Gen
open Idealize.ShloMosaic.Pipeline

variable (m : (ℓ : Loc nD τ sig) → Buf (Elt Ideal) ℓ)

/-- The bit-rate term: the sum over all entries of the likelihoods' logarithms to the base two, divided by −8. -/
def bitLoss (l : FVec Ideal S8x2048 .f32) : FVec Ideal S_ .f32 :=
  Host.divf (F := Ideal)
    (Host.reduceAdd (F := Ideal)
      (Host.divf (F := Ideal) (Host.log (F := Ideal) l)
        (broadcastInDim S8x2048 ![] bcast_S_S8x2048 (Host.log (F := Ideal) (constant (F := Ideal) S_ .f32 0x40000000#32))))
      (constant (F := Ideal) S_ .f32 0x00000000#32) reducesTo_S8x2048_S_d0_1 h_S_)
    (constant (F := Ideal) S_ .f32 0xC1000000#32)

/-- The two halves' minima joined: at every point the smaller of the two. -/
def joinHalves (oy : FVec Ideal S2x8x4096 .f32) : FVec Ideal S8x4096 .f32 :=
  minimumf (F := Ideal)
    (shapeCast S8x4096 (extractStridedSlice S1x8x4096 ![0, 0, 0] oy slices_S2x8x4096_S1x8x4096_0_0_0) shapeCasts_S1x8x4096_S8x4096)
    (shapeCast S8x4096 (extractStridedSlice S1x8x4096 ![1, 0, 0] oy slices_S2x8x4096_S1x8x4096_1_0_0) shapeCasts_S1x8x4096_S8x4096)

/-- The reconstruction term: the two arrays of minima, each summed and divided by 32768, added. -/
def recLossOf (a b : FVec Ideal S8x4096 .f32) : FVec Ideal S_ .f32 :=
  addf (F := Ideal)
    (Host.divf (F := Ideal) (Host.reduceAdd (F := Ideal) a (constant (F := Ideal) S_ .f32 0x00000000#32) reducesTo_S8x4096_S_d0_1 h_S_)
      (constant (F := Ideal) S_ .f32 0x47000000#32))
    (Host.divf (F := Ideal) (Host.reduceAdd (F := Ideal) b (constant (F := Ideal) S_ .f32 0x00000000#32) reducesTo_S8x4096_S_d0_1 h_S_)
      (constant (F := Ideal) S_ .f32 0x47000000#32))

/-- The joined minima at a point: the smaller of the two halves' entries. -/
theorem joinHalves_apply (oy : FVec Ideal S2x8x4096 .f32) (n : Fin 8) (q : Fin 4096) :
    joinHalves oy (ix2 n q) = min (oy (ix3 (0 : Fin 2) n q)) (oy (ix3 (1 : Fin 2) n q)) := by
  unfold joinHalves
  show min (shapeCast S8x4096 (extractStridedSlice S1x8x4096 ![0, 0, 0] oy slices_S2x8x4096_S1x8x4096_0_0_0) shapeCasts_S1x8x4096_S8x4096 (ix2 n q))
      (shapeCast S8x4096 (extractStridedSlice S1x8x4096 ![1, 0, 0] oy slices_S2x8x4096_S1x8x4096_1_0_0) shapeCasts_S1x8x4096_S8x4096 (ix2 n q)) = _
  rw [shapeCast_1ab_ab_apply, shapeCast_1ab_ab_apply,
    extractStridedSlice_apply (s := S2x8x4096) (t := S1x8x4096) ![0, 0, 0] oy slices_S2x8x4096_S1x8x4096_0_0_0 (ix3 (0 : Fin 1) n q)
      (ix3 (0 : Fin 2) n q) (fun a => match a with | ⟨0, _⟩ => rfl | ⟨1, _⟩ => by show n.val = 0 + n.val; omega | ⟨2, _⟩ => by show q.val = 0 + q.val; omega),
    extractStridedSlice_apply (s := S2x8x4096) (t := S1x8x4096) ![1, 0, 0] oy slices_S2x8x4096_S1x8x4096_1_0_0 (ix3 (0 : Fin 1) n q)
      (ix3 (1 : Fin 2) n q) (fun a => match a with | ⟨0, _⟩ => rfl | ⟨1, _⟩ => by show n.val = 0 + n.val; omega | ⟨2, _⟩ => by show q.val = 0 + q.val; omega)]

/-- After the region the first output array is what the pipeline's proof data computes. -/
theorem tail_ox (c : Dev nD) :
    withArrays (cfgs 0).spec c (V0 m c) (fun w => (dats m 0 c).arrAt w (cfgs 0).N) (Proc.devRef .tc main_v9_0)
      = (dats m 0 c).arrAt 2 cfg0.N :=
  Pipeline.withArrays_arr spec0 launch0.win.arr_inj c _ _ 2

/-- After the region the second output array is what the pipeline's proof data computes. -/
theorem tail_oy (c : Dev nD) :
    withArrays (cfgs 0).spec c (V0 m c) (fun w => (dats m 0 c).arrAt w (cfgs 0).N) (Proc.devRef .tc main_v9_1)
      = (dats m 0 c).arrAt 3 cfg0.N :=
  Pipeline.withArrays_arr spec0 launch0.win.arr_inj c _ _ 3

/-- The likelihoods are no array of the pipeline and no operation before the region writes them. -/
theorem tail_l (c : Dev nD) :
    withArrays (cfgs 0).spec c (V0 m c) (fun w => (dats m 0 c).arrAt w (cfgs 0).N) (Proc.devRef .tc main_arg2)
      = m ((c.tc : Thread nD τ).loc main_arg2) := by
  rw [Pipeline.withArrays_of_ne _ c (V0 m c) _ main_arg2 (by exact (by decide : ∀ w, Pipeline.arrRef spec0 w ≠ main_arg2))]
  exact V_main_arg2 m c

/-- The total: the bit-rate term over 4096 plus the reconstruction term. -/
theorem after_main_v29 (c : Dev nD) :
    (Pipeline.afterTail₀ cfgs (dats m) 0 (V0 m) [hostOps1] c main_v29 : FVec Ideal S_ .f32)
      = addf (F := Ideal) (Host.divf (F := Ideal) (bitLoss (m ((c.tc : Thread nD τ).loc main_arg2))) (constant (F := Ideal) S_ .f32 0x45800000#32)) (mulf (F := Ideal) (constant (F := Ideal) S_ .f32 0x3F800000#32) (recLossOf ((dats m 0 c).arrAt 2 cfg0.N : FVec Ideal S8x4096 .f32) (joinHalves ((dats m 0 c).arrAt 3 cfg0.N : FVec Ideal S2x8x4096 .f32)))) := by
  unfold Pipeline.afterTail₀
  show StableHlo.after hostOps1 _ (Proc.devRef .tc main_v29) = _
  after_results_simp
  rw [tail_ox m c, tail_oy m c, tail_l m c]
  rfl

/-- The bit-rate term over 4096 (the copy the total uses). -/
theorem after_main_v27 (c : Dev nD) :
    (Pipeline.afterTail₀ cfgs (dats m) 0 (V0 m) [hostOps1] c main_v27 : FVec Ideal S_ .f32)
      = Host.divf (F := Ideal) (bitLoss (m ((c.tc : Thread nD τ).loc main_arg2))) (constant (F := Ideal) S_ .f32 0x45800000#32) := by
  unfold Pipeline.afterTail₀
  show StableHlo.after hostOps1 _ (Proc.devRef .tc main_v27) = _
  after_results_simp
  rw [tail_l m c]
  rfl

/-- The reconstruction term. -/
theorem after_main_v19 (c : Dev nD) :
    (Pipeline.afterTail₀ cfgs (dats m) 0 (V0 m) [hostOps1] c main_v19 : FVec Ideal S_ .f32)
      = recLossOf ((dats m 0 c).arrAt 2 cfg0.N : FVec Ideal S8x4096 .f32) (joinHalves ((dats m 0 c).arrAt 3 cfg0.N : FVec Ideal S2x8x4096 .f32)) := by
  unfold Pipeline.afterTail₀
  show StableHlo.after hostOps1 _ (Proc.devRef .tc main_v19) = _
  after_results_simp
  rw [tail_ox m c, tail_oy m c]
  rfl

/-- The bit-rate term. -/
theorem after_main_v25 (c : Dev nD) :
    (Pipeline.afterTail₀ cfgs (dats m) 0 (V0 m) [hostOps1] c main_v25 : FVec Ideal S_ .f32)
      = bitLoss (m ((c.tc : Thread nD τ).loc main_arg2)) := by
  unfold Pipeline.afterTail₀
  show StableHlo.after hostOps1 _ (Proc.devRef .tc main_v25) = _
  after_results_simp
  rw [tail_l m c]
  rfl

/-- The bit-rate term over 4096. -/
theorem after_main_v26 (c : Dev nD) :
    (Pipeline.afterTail₀ cfgs (dats m) 0 (V0 m) [hostOps1] c main_v26 : FVec Ideal S_ .f32)
      = Host.divf (F := Ideal) (bitLoss (m ((c.tc : Thread nD τ).loc main_arg2))) (constant (F := Ideal) S_ .f32 0x45800000#32) := by
  unfold Pipeline.afterTail₀
  show StableHlo.after hostOps1 _ (Proc.devRef .tc main_v26) = _
  after_results_simp
  rw [tail_l m c]
  rfl

/-- Every weakly fair run of the program from zero counters terminates, and then its five results hold the total,
    the two terms and the two copies of the bit-rate term over 4096, as functions of the two output arrays of the
    region and of the likelihoods; the three arguments are as launched. -/
theorem tail_run (ρ : Dev nD → PrngReg) :
    θ_run defs (onTc (τ := τ) (main (F := Ideal))) ⟨m, fun _ => 0, ρ⟩ (fun r => ∀ c : Dev nD,
      (r.2.mem ((c.tc : Thread nD τ).loc main_v29) : FVec Ideal S_ .f32) = addf (F := Ideal) (Host.divf (F := Ideal) (bitLoss (m ((c.tc : Thread nD τ).loc main_arg2))) (constant (F := Ideal) S_ .f32 0x45800000#32)) (mulf (F := Ideal) (constant (F := Ideal) S_ .f32 0x3F800000#32) (recLossOf ((dats m 0 c).arrAt 2 cfg0.N : FVec Ideal S8x4096 .f32) (joinHalves ((dats m 0 c).arrAt 3 cfg0.N : FVec Ideal S2x8x4096 .f32))))
      ∧ (r.2.mem ((c.tc : Thread nD τ).loc main_v27) : FVec Ideal S_ .f32) = Host.divf (F := Ideal) (bitLoss (m ((c.tc : Thread nD τ).loc main_arg2))) (constant (F := Ideal) S_ .f32 0x45800000#32)
      ∧ (r.2.mem ((c.tc : Thread nD τ).loc main_v19) : FVec Ideal S_ .f32) = recLossOf ((dats m 0 c).arrAt 2 cfg0.N : FVec Ideal S8x4096 .f32) (joinHalves ((dats m 0 c).arrAt 3 cfg0.N : FVec Ideal S2x8x4096 .f32))
      ∧ (r.2.mem ((c.tc : Thread nD τ).loc main_v25) : FVec Ideal S_ .f32) = bitLoss (m ((c.tc : Thread nD τ).loc main_arg2))
      ∧ (r.2.mem ((c.tc : Thread nD τ).loc main_v26) : FVec Ideal S_ .f32) = Host.divf (F := Ideal) (bitLoss (m ((c.tc : Thread nD τ).loc main_arg2))) (constant (F := Ideal) S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v29 (Pipeline.mem_restRefs_of main_v29 (by decide) (by decide))).trans (after_main_v29 m c),
    ((h c).2 main_v27 (Pipeline.mem_restRefs_of main_v27 (by decide) (by decide))).trans (after_main_v27 m c),
    ((h c).2 main_v19 (Pipeline.mem_restRefs_of main_v19 (by decide) (by decide))).trans (after_main_v19 m c),
    ((h c).2 main_v25 (Pipeline.mem_restRefs_of main_v25 (by decide) (by decide))).trans (after_main_v25 m c),
    ((h c).2 main_v26 (Pipeline.mem_restRefs_of main_v26 (by decide) (by decide))).trans (after_main_v26 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

end Cert.KernelIdeal.TailValue

end
-- ==== Proof.FiniteInputs.lean ====
/-
  The precondition read back: when the finiteness test of the three inputs is all ones, every entry of the two clouds
  is a real number.
-/
import proofs.«142549_j74560632259515_2_alg».proof.Pre_finite_inputs
import proofs.«142549_j74560632259515_2_alg».proof.Proof.Gen.Pre_finite_inputs
import Idealize.ShloMosaic.Lib.ReduceAll
import Idealize.ShloMosaic.Lib.ValueIdx

noncomputable section

namespace Cert.Pre_finite_inputs.Decode

open Idealize.ShloMosaic Idealize.ShloMosaic.ValueIdx Cert.Pre_finite_inputs Cert.Pre_finite_inputs.Gen

/-- The scalar shape has one index. -/
local instance : Subsingleton S_.Idx := ⟨fun a b => funext fun d => d.elim0⟩

/-- A number whose absolute value is below the top element is real. -/
theorem real_of_abs_lt (v : EReal)
    (h : Ideal.cmp .olt (max v (-v)) (Ideal.ofBits .f32 0x7F800000#32) = 1#1) :
    ∃ r : ℝ, v = (r : EReal) := by
  have ht : Ideal.ofBits .f32 0x7F800000#32 = ⊤ := by simp [Ideal.ofBits, Ideal.ieee]
  rw [ht] at h
  have hlt : max v (-v) < ⊤ := by
    by_contra hn
    have h0 : Ideal.cmp .olt (max v (-v)) ⊤ = 0#1 := by
      show BitVec.ofBool (decide (max v (-v) < ⊤)) = 0#1
      rw [decide_eq_false hn]; rfl
    rw [h0] at h
    exact absurd h (by decide)
  induction v using EReal.rec with
  | bot => simp at hlt
  | top => simp at hlt
  | coe r => exact ⟨r, rfl⟩

/-- Every entry of both clouds is real when the test holds. -/
theorem real_of_pre (x y : FVec Ideal S8x4096x3 .f32) (l : FVec Ideal S8x2048 .f32)
    (h : Cert.Pre_finite_inputs.fn (F := Ideal) x y l = fun _ => 1#1) :
    (∀ i, ∃ r : ℝ, x i = (r : EReal)) ∧ (∀ i, ∃ r : ℝ, y i = (r : EReal)) := by
  have e := congrFun h ix0
  dsimp only [Cert.Pre_finite_inputs.fn] at e
  obtain ⟨e12, -⟩ := IntOp.andi_eq_one.1 e
  obtain ⟨e1, e2⟩ := IntOp.andi_eq_one.1 e12
  refine ⟨fun i => ?_, fun i => ?_⟩
  · exact real_of_abs_lt (x i) (Host.reduce_andi_all _ _ _ _ ix0 e1 i)
  · exact real_of_abs_lt (y i) (Host.reduce_andi_all _ _ _ _ ix0 e2 i)

end Cert.Pre_finite_inputs.Decode

end
-- ==== Proof.lean ====
/-
  Two arrangements of the bidirectional nearest-neighbour (chamfer) loss between two batches of point clouds are equal
  on clouds of real numbers.

  The reference forms every squared distance `(|x_p|² + |y_q|²) − 2·⟨x_p, y_q⟩`, takes the minimum over `q` for each `p`
  and over `p` for each `q`, averages each and adds the two averages.  The kernel program appends a coordinate `1` to
  every `x_p`, replaces every `y_q` by `(−2·y_q, |y_q|²)`, and on a grid of two halves of sixteen tiles of 128 rows forms
  the four-term inner products `|y_q|² − 2·⟨x_p, y_q⟩` of a tile against all of `y`; it writes, per row, the minimum over
  `q` plus `|x_p|²`, and keeps in a scratch the running minimum over the rows seen of the inner product plus `|x_p|²`,
  written out once per half; the two halves are joined by an entrywise minimum afterwards.  On real numbers the two
  squared distances are one (an identity of real arithmetic: this is where the finiteness of the inputs is used), adding
  the real `|x_p|²` commutes with a minimum, and a minimum over all rows is the minimum of the minima over the tiles and
  halves, in any grouping.  The bit-rate terms — sums of base-two logarithms of the likelihoods, divided by constants —
  are the same operations in both programs.

  The frames of the two kernel programs are the generated ones; the reference's is its generated run with the results
  dropped.  The ideal pass rewrote nothing, so the kernel's idealization is its own text read on the extended reals.
-/
import proofs.«142549_j74560632259515_2_alg».proof.Defs
import proofs.«142549_j74560632259515_2_alg».proof.Proof.Gen.Kernel
import proofs.«142549_j74560632259515_2_alg».proof.Proof.Gen.Kernel.Skeleton
import proofs.«142549_j74560632259515_2_alg».proof.Proof.Gen.Kernel.Launch
import proofs.«142549_j74560632259515_2_alg».proof.Proof.Gen.Kernel.Points
import proofs.«142549_j74560632259515_2_alg».proof.Proof.Gen.Kernel.Frame
import proofs.«142549_j74560632259515_2_alg».proof.Proof.Gen.KernelIdeal
import proofs.«142549_j74560632259515_2_alg».proof.Proof.Gen.KernelIdeal.Skeleton
import proofs.«142549_j74560632259515_2_alg».proof.Proof.Gen.KernelIdeal.Launch
import proofs.«142549_j74560632259515_2_alg».proof.Proof.Gen.KernelIdeal.Points
import proofs.«142549_j74560632259515_2_alg».proof.Proof.Gen.KernelIdeal.Frame
import proofs.«142549_j74560632259515_2_alg».proof.Proof.Gen.ReferenceIdeal
import proofs.«142549_j74560632259515_2_alg».proof.Proof.Gen.ReferenceIdeal.Run
import proofs.«142549_j74560632259515_2_alg».proof.Proof.Gen.ReferenceIdeal.Read
import proofs.«142549_j74560632259515_2_alg».proof.Proof.Gen.Pre_finite_inputs
import proofs.«142549_j74560632259515_2_alg».proof.Proof.Results
import proofs.«142549_j74560632259515_2_alg».proof.Proof.KernelTail
import proofs.«142549_j74560632259515_2_alg».proof.Proof.FiniteInputs
import Idealize.ShloMosaic.Adequacy
import Idealize.ShloMosaic.Init

noncomputable section

namespace Cert.Proof

open Idealize.ShloMosaic Idealize.ShloMosaic.ValueIdx Idealize.SL.Sem

/-- The word-level kernel program runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as launched: its run with the five results dropped. -/
theorem frame_ri : Cert.frame_ReferenceIdeal := fun m ρ _ =>
  (θ_run Cert.ReferenceIdeal.defs _ _).mono (fun _ h c => (h c).2.2.2.2.2)
    (Cert.ReferenceIdeal.Value.run (F := Ideal) m ρ)

/-- On the extended reals, from memories that agree on finite arguments, the two programs end with equal results:
    the region's row array is the reference's minimum over the second cloud, the joined column array its minimum over
    the first, and everything after them, and the bit-rate terms, are the same operations. -/
theorem algebraic : Cert.algebraic_KernelIdeal_ReferenceIdeal := by
  intro m ρ m' ρ' hpre hagree
  refine ⟨_, _, _, _, _, Cert.KernelIdeal.TailValue.tail_run m ρ, ?_⟩
  refine (θ_run Cert.ReferenceIdeal.defs _ _).mono (fun r h c => ?_)
    (Cert.ReferenceIdeal.Value.run (F := Ideal) m' ρ')
  obtain ⟨h37, h7, h35, h5, h6, ha0, ha1, ha2⟩ := h c
  obtain ⟨e0, e1, e2⟩ := hagree c
  obtain ⟨hx, hy⟩ := Cert.Pre_finite_inputs.Decode.real_of_pre _ _ _ (hpre c)
  have hrow : ((Cert.KernelIdeal.Gen.dats m 0 c).arrAt 2 Cert.KernelIdeal.cfg0.N : FVec Ideal Cert.KernelIdeal.S8x4096 .f32)
      = Cert.ReferenceIdeal.Read.val_main_v29 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
    Cert.Proof.Arrays.rowArr_eq m c hx hy
  have hcol : Cert.KernelIdeal.TailValue.joinHalves
        ((Cert.KernelIdeal.Gen.dats m 0 c).arrAt 3 Cert.KernelIdeal.cfg0.N : FVec Ideal Cert.KernelIdeal.S2x8x4096 .f32)
      = Cert.ReferenceIdeal.Read.val_main_v32 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
    funext j
    obtain ⟨n, q, rfl⟩ : ∃ (n : Fin 8) (q : Fin 4096), j = ix2 n q := ⟨j 0, j 1, eq_ix2 j⟩
    rw [Cert.KernelIdeal.TailValue.joinHalves_apply]
    exact Cert.Proof.Arrays.colArr_eq m c hx hy n q
  refine ⟨h37.trans ?_, h7.trans ?_, h35.trans ?_, h5.trans ?_, h6.trans ?_, ha0, ha1, ha2⟩
  · rw [e0, e1, e2, hrow, hcol]; rfl
  · rw [e2]; rfl
  · rw [e0, e1, hrow, hcol]; rfl
  · rw [e2]; rfl
  · rw [e2]; rfl

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
